-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S64x512 : Shape := ⟨2, ![64, 512]⟩
abbrev S512x128 : Shape := ⟨2, ![512, 128]⟩
abbrev S128 : Shape := ⟨1, ![128]⟩
abbrev S128x64 : Shape := ⟨2, ![128, 64]⟩
abbrev S64 : Shape := ⟨1, ![64]⟩
abbrev S1024x512 : Shape := ⟨2, ![1024, 512]⟩
abbrev S512 : Shape := ⟨1, ![512]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S64x512 : S_.BroadcastsInDim S64x512 (![] : Fin 0 → Fin S64x512.rank)
  reducesTo_S64x512_S_d0_1 : S64x512.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg4 : FVec F S128x64 .f32) (main_arg5 : FVec F S64 .f32) (main_arg6 : FVec F S1024x512 .f32) (main_arg7 : FVec F S512 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S1024x512 .f32 := Host.absf main_arg6
  let main_cst_10 : FVec F S_ .f32 := constant S_ .f32 0x7F800000#32
  let main_v30 : FVec F S1024x512 .f32 := broadcastInDim S1024x512 ![] bcast_S_S1024x512 main_cst_10
  let main_v31 : IVec S1024x512 1 := cmpf .olt main_v29 main_v30
  let main_c_11 : IVec S_ 1 := constantI S_ 1 1#1
  let main_v32 : IVec S_ 1 := (fun x v => Host.reduce IntOp.andi x v reducesTo_S1024x512_S_d0_1 h_S_) main_v31 main_c_11
  let main_v33 : IVec S_ 1 := andi main_v28 main_v32
  fn_part2 (F := F) main_arg7 main_v33

def fn {F : FTy → Type} [FloatOps F] (main_arg0 : FVec F S131072x512 .f32) (main_arg1 : FVec F S64x512 .f32) (main_arg2 : FVec F S512x128 .f32) (main_arg3 : FVec F S128 .f32) (main_arg4 : FVec F S128x64 .f32) (main_arg5 : FVec F S64 .f32) (main_arg6 : FVec F S1024x512 .f32) (main_arg7 : FVec F S512 .f32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S512x128 .f32 := Host.absf main_arg2
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S131072x512 : Shape := ⟨2, ![131072, 512]⟩
abbrev S64x512 : Shape := ⟨2, ![64, 512]⟩
abbrev S512x128 : Shape := ⟨2, ![512, 128]⟩
abbrev S128 : Shape := ⟨1, ![128]⟩
abbrev S128x64 : Shape := ⟨2, ![128, 64]⟩
abbrev S64 : Shape := ⟨1, ![64]⟩
abbrev S1024x512 : Shape := ⟨2, ![1024, 512]⟩
abbrev S512 : Shape := ⟨1, ![512]⟩
abbrev S512x512 : Shape := ⟨2, ![512, 512]⟩
abbrev S2x64x512 : Shape := ⟨3, ![2, 64, 512]⟩
abbrev S1x64x512 : Shape := ⟨3, ![1, 64, 512]⟩
abbrev S1024x128 : Shape := ⟨2, ![1024, 128]⟩
abbrev S1x128 : Shape := ⟨2, ![1, 128]⟩
abbrev S1024x64 : Shape := ⟨2, ![1024, 64]⟩
abbrev S1x64 : Shape := ⟨2, ![1, 64]⟩
abbrev S1024 : Shape := ⟨1, ![1024]⟩
abbrev S1024x1 : Shape := ⟨2, ![1024, 1]⟩
abbrev S1x512 : Shape := ⟨2, ![1, 512]⟩

abbrev nBuf : Space → Nat
  | .hbm => 18
  | .vmem => 15
  | .smem => 0
  | _ => 0

abbrev bufTy : (tb : Table) → Fin (tcTables nBuf tb) → BufTy
  | .hbm, ⟨0, _⟩ => ⟨S131072x512, .f32⟩
  | .hbm, ⟨1, _⟩ => ⟨S64x512, .f32⟩
  | .hbm, ⟨2, _⟩ => ⟨S512x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1024x512, .f32⟩
  | .hbm, ⟨7, _⟩ => ⟨S512, .f32⟩
  | .hbm, ⟨8, _⟩ => ⟨S512x512, .f32⟩
  | .hbm, ⟨9, _⟩ => ⟨S512x512, .f32⟩
  | .hbm, ⟨10, _⟩ => ⟨S131072x512, .f32⟩
  | .hbm, ⟨11, _⟩ => ⟨S2x64x512, .f32⟩
  | .hbm, ⟨12, _⟩ => ⟨S1x64x512, .f32⟩
  | .hbm, ⟨13, _⟩ => ⟨S64x512, .f32⟩
  | .hbm, ⟨14, _⟩ => ⟨S64x512, .f32⟩
  | .hbm, ⟨15, _⟩ => ⟨S1x64x512, .f32⟩
  | .hbm, ⟨16, _⟩ => ⟨S64x512, .f32⟩
  | .hbm, ⟨17, _⟩ => ⟨S64x512, .f32⟩
  | .local _ .vmem, ⟨0, _⟩ => ⟨S1024x512, .f32⟩
  | .local _ .vmem, ⟨1, _⟩ => ⟨S1024x512, .f32⟩
  | .local _ .vmem, ⟨2, _⟩ => ⟨S64x512, .f32⟩
  | .local _ .vmem, ⟨3, _⟩ => ⟨S512x128, .f32⟩
  | .local _ .vmem, ⟨4, _⟩ => ⟨S128, .f32⟩
  | .local _ .vmem, ⟨5, _⟩ => ⟨S128x64, .f32⟩
  | .local _ .vmem, ⟨6, _⟩ => ⟨S64, .f32⟩
  | .local _ .vmem, ⟨7, _⟩ => ⟨S512x512, .f32⟩
  | .local _ .vmem, ⟨8, _⟩ => ⟨S512x512, .f32⟩
  | .local _ .vmem, ⟨9, _⟩ => ⟨S512, .f32⟩
  | .local _ .vmem, ⟨10, _⟩ => ⟨S1024x512, .f32⟩
  | .local _ .vmem, ⟨11, _⟩ => ⟨S1024x512, .f32⟩
  | .local _ .vmem, ⟨12, _⟩ => ⟨S1x64x512, .f32⟩
  | .local _ .vmem, ⟨13, _⟩ => ⟨S1x64x512, .f32⟩
  | .local _ .vmem, ⟨14, _⟩ => ⟨S64x512, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v60 : BitVec 1 := Scalar.cmpi .eq arg1 c63_i32
  let v61 : BitVec 32 := Scalar.extui v60
  let c0_i32_30 : BitVec 32 := 0#32
  let v62 : BitVec 1 := Scalar.cmpi .ne v61 c0_i32_30
  v62

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x64x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

class Facts₀ : Prop where
  slices_S1024x512_S512x512_0_0 : S1024x512.Slices ![0, 0] S512x512
  slices_S1024x512_S512x512_512_0 : S1024x512.Slices ![512, 0] S512x512
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S1024x64 : S1x64.Broadcasts S1024x64
  reduces_S1024x64_S1024 : S1024x64.Reduces [1] S1024
  shapeCasts_S1024_S1024x1 : S1024.ShapeCasts S1024x1
  broadcasts_S1024x1_S1024x64 : S1024x1.Broadcasts S1024x64
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  shapeCasts_S64x512_S1x64x512 : S64x512.ShapeCasts S1x64x512
  inb_S1x64x512_S1x64x512_0_0_0 : ∀ a, (![0, 0, 0] : Fin 3 → Nat) a + S1x64x512.size a ≤ S1x64x512.size a
  h_S1x64x512 : 0 < S1x64x512.numel
  slices_S2x64x512_S1x64x512_0_0_0 : S2x64x512.Slices ![0, 0, 0] S1x64x512
  shapeCasts_S1x64x512_S64x512 : S1x64x512.ShapeCasts S64x512
  slices_S2x64x512_S1x64x512_1_0_0 : S2x64x512.Slices ![1, 0, 0] S1x64x512
  dot_S1024x512_S512x128_S1024x128_1_0_0_1_n_n_wf : DotDims.WF S1024x512 S512x128 S1024x128 [1] [0] [0] [1] [] []
  dot_S1024x128_S128x64_S1024x64_1_0_0_1_n_n_wf : DotDims.WF S1024x128 S128x64 S1024x64 [1] [0] [0] [1] [] []
  dot_S1024x64_S64x512_S1024x512_1_0_0_1_n_n_wf : DotDims.WF S1024x64 S64x512 S1024x512 [1] [0] [0] [1] [] []
  dot_S1024x512_S512x512_S1024x512_1_0_0_1_n_n_wf : DotDims.WF S1024x512 S512x512 S1024x512 [1] [0] [0] [1] [] []
  dot_S1024x64_S1024x512_S64x512_0_0_1_1_n_n_wf : DotDims.WF S1024x64 S1024x512 S64x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S131072x512.size a
  hwx0_0 : ∀ i : grid0.Coords, EltTy.bits .f32 = 32 ∨ (Rect.block (s := S131072x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x512.size a
  hwx0_1 : ∀ i : grid0.Coords, EltTy.bits .f32 = 32 ∨ (Rect.block (s := S64x512) S64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .f32 = 32 ∨ (Rect.block (s := S512x128) S512x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .f32 = 32 ∨ (Rect.block (s := S512x512) S512x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .f32 = 32 ∨ (Rect.block (s := S512x512) S512x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512.size a ≤ S512.size a
  hwx0_8 : ∀ i : grid0.Coords, EltTy.bits .f32 = 32 ∨ (Rect.block (s := S512) S512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x512.size a ≤ S131072x512.size a
  hwx0_9 : ∀ i : grid0.Coords, EltTy.bits .f32 = 32 ∨ (Rect.block (s := S131072x512) S1024x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x64x512.size a ≤ S2x64x512.size a
  hwx0_10 : ∀ i : grid0.Coords, EltTy.bits .f32 = 32 ∨ (Rect.block (s := S2x64x512) S1x64x512.size (cc0_transform_10 i) (hinb0_10 i)).WholeWords (EltTy.packing .f32)

variable [Facts₀]

def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x512_S1024x512_1_0_0_1_n_n : DotDims S1024x64 S64x512 S1024x512 where
  lhsContracting := [1]
  rhsContracting := [0]
  lhsNonContracting := [0]
  rhsNonContracting := [1]
  lhsBatch := []
  rhsBatch := []
  wf := dot_S1024x64_S64x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x64_S1024x512_S64x512_0_0_1_1_n_n : DotDims S1024x64 S1024x512 S64x512 where
  lhsContracting := [0]
  rhsContracting := [0]
  lhsNonContracting := [1]
  rhsNonContracting := [1]
  lhsBatch := []
  rhsBatch := []
  wf := dot_S1024x64_S1024x512_S64x512_0_0_1_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2_0) S1024x512.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v2_1) S1x64x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | ⟨_ + 11, h⟩ => absurd h (Nat.not_lt.2 (Nat.le_add_left _ _))

class Facts : Prop extends Facts₀ where

variable [Facts]
-- ==== ReferenceIdeal.lean ====
abbrev S131072x512 : Shape := ⟨2, ![131072, 512]⟩
abbrev S64x512 : Shape := ⟨2, ![64, 512]⟩
abbrev S512x128 : Shape := ⟨2, ![512, 128]⟩
abbrev S128 : Shape := ⟨1, ![128]⟩
abbrev S128x64 : Shape := ⟨2, ![128, 64]⟩
abbrev S64 : Shape := ⟨1, ![64]⟩
abbrev S1024x512 : Shape := ⟨2, ![1024, 512]⟩
abbrev S512 : Shape := ⟨1, ![512]⟩
abbrev S131072x128 : Shape := ⟨2, ![131072, 128]⟩
abbrev S1x128 : Shape := ⟨2, ![1, 128]⟩
abbrev S_ : Shape := ⟨0, ![]⟩
abbrev S131072x64 : Shape := ⟨2, ![131072, 64]⟩
abbrev S1x64 : Shape := ⟨2, ![1, 64]⟩
abbrev S131072 : Shape := ⟨1, ![131072]⟩
abbrev S131072x1 : Shape := ⟨2, ![131072, 1]⟩
abbrev S131072x1024 : Shape := ⟨2, ![131072, 1024]⟩
abbrev S1x512 : Shape := ⟨2, ![1, 512]⟩
abbrev S64x131072 : Shape := ⟨2, ![64, 131072]⟩

abbrev nBuf : Space → Nat
  | .hbm => 46
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S64x512, .f32⟩
  | .hbm, ⟨2, _⟩ => ⟨S512x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1024x512, .f32⟩
  | .hbm, ⟨7, _⟩ => ⟨S512, .f32⟩
  | .hbm, ⟨8, _⟩ => ⟨S131072x128, .f32⟩
  | .hbm, ⟨9, _⟩ => ⟨S1x128, .f32⟩
  | .hbm, ⟨10, _⟩ => ⟨S131072x128, .f32⟩
  | .hbm, ⟨11, _⟩ => ⟨S131072x128, .f32⟩
  | .hbm, ⟨12, _⟩ => ⟨S_, .f32⟩
  | .hbm, ⟨13, _⟩ => ⟨S131072x128, .f32⟩
  | .hbm, ⟨14, _⟩ => ⟨S131072x128, .f32⟩
  | .hbm, ⟨15, _⟩ => ⟨S131072x64, .f32⟩
  | .hbm, ⟨16, _⟩ => ⟨S1x64, .f32⟩
  | .hbm, ⟨17, _⟩ => ⟨S131072x64, .f32⟩
  | .hbm, ⟨18, _⟩ => ⟨S131072x64, .f32⟩
  | .hbm, ⟨19, _⟩ => ⟨S_, .f32⟩
  | .hbm, ⟨20, _⟩ => ⟨S131072, .f32⟩
  | .hbm, ⟨21, _⟩ => ⟨S_, .f32⟩
  | .hbm, ⟨22, _⟩ => ⟨S131072, .f32⟩
  | .hbm, ⟨23, _⟩ => ⟨S131072, .f32⟩
  | .hbm, ⟨24, _⟩ => ⟨S131072x1, .f32⟩
  | .hbm, ⟨25, _⟩ => ⟨S131072x64, .f32⟩
  | .hbm, ⟨26, _⟩ => ⟨S131072x64, .f32⟩
  | .hbm, ⟨27, _⟩ => ⟨S131072x64, .f32⟩
  | .hbm, ⟨28, _⟩ => ⟨S_, .f32⟩
  | .hbm, ⟨29, _⟩ => ⟨S131072, .f32⟩
  | .hbm, ⟨30, _⟩ => ⟨S131072x1, .f32⟩
  | .hbm, ⟨31, _⟩ => ⟨S131072x64, .f32⟩
  | .hbm, ⟨32, _⟩ => ⟨S131072x64, .f32⟩
  | .hbm, ⟨33, _⟩ => ⟨S131072x512, .f32⟩
  | .hbm, ⟨34, _⟩ => ⟨S131072x1024, .f32⟩
  | .hbm, ⟨35, _⟩ => ⟨S131072x512, .f32⟩
  | .hbm, ⟨36, _⟩ => ⟨S1x512, .f32⟩
  | .hbm, ⟨37, _⟩ => ⟨S131072x512, .f32⟩
  | .hbm, ⟨38, _⟩ => ⟨S131072x512, .f32⟩
  | .hbm, ⟨39, _⟩ => ⟨S131072x512, .f32⟩
  | .hbm, ⟨40, _⟩ => ⟨S64x131072, .f32⟩
  | .hbm, ⟨41, _⟩ => ⟨S64x512, .f32⟩
  | .hbm, ⟨42, _⟩ => ⟨S_, .f32⟩
  | .hbm, ⟨43, _⟩ => ⟨S64x512, .f32⟩
  | .hbm, ⟨44, _⟩ => ⟨S64x512, .f32⟩
  | .hbm, ⟨45, _⟩ => ⟨S64x512, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  reducesTo_S131072x64_S131072_d1 : S131072x64.ReducesTo [1] S131072
  h_S_ : 0 < S_.numel
  bcast_S_S131072 : S_.BroadcastsInDim S131072 (![] : Fin 0 → Fin S131072.rank)
  bcast_S131072_S131072x1_0 : S131072.BroadcastsInDim S131072x1 (![0] : Fin 1 → Fin S131072x1.rank)
  bcast_S131072x1_S131072x64_0_1 : S131072x1.BroadcastsInDim S131072x64 (![0, 1] : Fin 2 → Fin S131072x64.rank)
  concatenates_S131072x512_S131072x512_S131072x1024_d1 : Shape.Concatenates [S131072x512, S131072x512] S131072x1024 1
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  transposes_S131072x64_S64x131072_1_0 : S131072x64.Transposes [1, 0] S64x131072
  bcast_S_S64x512 : S_.BroadcastsInDim S64x512 (![] : Fin 0 → Fin S64x512.rank)
  dot_S131072x512_S512x128_S131072x128_1_0_0_1_n_n_wf : DotDims.WF S131072x512 S512x128 S131072x128 [1] [0] [0] [1] [] []
  dot_S131072x128_S128x64_S131072x64_1_0_0_1_n_n_wf : DotDims.WF S131072x128 S128x64 S131072x64 [1] [0] [0] [1] [] []
  dot_S131072x64_S64x512_S131072x512_1_0_0_1_n_n_wf : DotDims.WF S131072x64 S64x512 S131072x512 [1] [0] [0] [1] [] []
  dot_S131072x1024_S1024x512_S131072x512_1_0_0_1_n_n_wf : DotDims.WF S131072x1024 S1024x512 S131072x512 [1] [0] [0] [1] [] []
  dot_S64x131072_S131072x512_S64x512_1_0_0_1_n_n_wf : DotDims.WF S64x131072 S131072x512 S64x512 [1] [0] [0] [1] [] []

variable [Facts₀]

def dot_S131072x512_S512x128_S131072x128_1_0_0_1_n_n : DotDims S131072x512 S512x128 S131072x128 where
  lhsContracting := [1]
  rhsContracting := [0]
  lhsNonContracting := [0]
  rhsNonContracting := [1]
  lhsBatch := []
  rhsBatch := []
  wf := dot_S131072x512_S512x128_S131072x128_1_0_0_1_n_n_wf
def dot_S131072x128_S128x64_S131072x64_1_0_0_1_n_n : DotDims S131072x128 S128x64 S131072x64 where
  lhsContracting := [1]
  rhsContracting := [0]
  lhsNonContracting := [0]
  rhsNonContracting := [1]
  lhsBatch := []
  rhsBatch := []
  wf := dot_S131072x128_S128x64_S131072x64_1_0_0_1_n_n_wf
def dot_S131072x64_S64x512_S131072x512_1_0_0_1_n_n : DotDims S131072x64 S64x512 S131072x512 where
  lhsContracting := [1]
  rhsContracting := [0]
  lhsNonContracting := [0]
  rhsNonContracting := [1]
  lhsBatch := []
  rhsBatch := []
  wf := dot_S131072x64_S64x512_S131072x512_1_0_0_1_n_n_wf
def dot_S131072x1024_S1024x512_S131072x512_1_0_0_1_n_n : DotDims S131072x1024 S1024x512 S131072x512 where
  lhsContracting := [1]
  rhsContracting := [0]
  lhsNonContracting := [0]
  rhsNonContracting := [1]
  lhsBatch := []
  rhsBatch := []
  wf := dot_S131072x1024_S1024x512_S131072x512_1_0_0_1_n_n_wf
def dot_S64x131072_S131072x512_S64x512_1_0_0_1_n_n : DotDims S64x131072 S131072x512 S64x512 where
  lhsContracting := [1]
  rhsContracting := [0]
  lhsNonContracting := [0]
  rhsNonContracting := [1]
  lhsBatch := []
  rhsBatch := []
  wf := dot_S64x131072_S131072x512_S64x512_1_0_0_1_n_n_wf

class Facts : Prop extends Facts₀ where

variable [Facts]
-- ==== Proof.Pieces.lean ====
/-
  What each control case of the kernel body leaves in its buffers, as the body's pure terms.

  The body has three cases over the grid: the first step of a core's run (the accumulator is zeroed, then one tile is
  added), a middle step (one tile is added to what the step before left), the last step (a tile is added, and the rate
  times the accumulator is written to the core's slot of the second output).  In every case the first output's block is
  the tile's selected states.  Each buffer is stored whole, so what it holds afterwards is the last store's value, and a
  load that follows a whole store of the same buffer reads that store's value.  All of this holds for any float
  instance.
-/
import proofs.«140680_j54614804136388_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- One tile's addition to the accumulator `acc`: the body's term over the nine input blocks. -/
abbrev step (x0 : Vec F S1024x512 .f32) (x1 : Vec F S64x512 .f32) (x2 : Vec F S512x128 .f32) (x3 : Vec F S128 .f32)
    (x4 : Vec F S128x64 .f32) (x5 : Vec F S64 .f32) (x6 x7 : Vec F S512x512 .f32) (x8 : Vec F S512 .f32)
    (acc : Vec F S64x512 .f32) : Vec F S64x512 .f32 :=
  k0_pay1 (k0_pay4 x0) (k0_pay5 x0 x2 x3 x4 x5) (k0_pay6 x0 x2 x3 x4 x5 x1) x6 x7 x8 acc

/-- First step: the accumulator ends at the zero block plus the tile's contribution. -/
theorem sout_A (c : Dev nD) (i : grid0.Coords) (arg2 : Memref sig .tc .vmem S1024x512 .f32) (harg2 : arg2.IsWhole) (arg3 : Memref sig .tc .vmem S64x512 .f32) (harg3 : arg3.IsWhole) (arg4 : Memref sig .tc .vmem S512x128 .f32) (harg4 : arg4.IsWhole) (arg5 : Memref sig .tc .vmem S128 .f32) (harg5 : arg5.IsWhole) (arg6 : Memref sig .tc .vmem S128x64 .f32) (harg6 : arg6.IsWhole) (arg7 : Memref sig .tc .vmem S64 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512 .f32) (harg10 : arg10.IsWhole) (arg11 : Memref sig .tc .vmem S1024x512 .f32) (harg11 : arg11.IsWhole) (arg12 : Memref sig .tc .vmem S1x64x512 .f32) (harg12 : arg12.IsWhole) (arg13 : Memref sig .tc .vmem S64x512 .f32) (harg13 : arg13.IsWhole) (hc0 : cond0_0 i) (hc1 : ¬cond0_1 i) (x0 : Vec F S1024x512 .f32) (x1 : Vec F S64x512 .f32) (x2 : Vec F S512x128 .f32) (x3 : Vec F S128 .f32) (x4 : Vec F S128x64 .f32) (x5 : Vec F S64 .f32) (x6 : Vec F S512x512 .f32) (x7 : Vec F S512x512 .f32) (x8 : Vec F S512 .f32) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 = step x0 x1 x2 x3 x4 x5 x6 x7 x8 k0_pay3 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8)]
  unfold kernelRun0_A
  dsimp only
  sl_unfold_words
  rw [View.canon_cons_unit_zero (S := S64x512) hz2, View.readCov_unit_zero (S := S64x512) _ hz2]
  simp only [View.readAt_eq_ld, harg2.read_unread, harg3.read_unread, harg4.read_unread, harg5.read_unread, harg6.read_unread, harg7.read_unread, harg8.read_unread, harg9.read_unread, harg10.read_unread, harg13.read_unread,
    View.ld_unit_zero (S := S1024x512) hz2, View.ld_unit_zero (S := S64x512) hz2, View.ld_unit_zero (S := S512x128) hz2, View.ld_unit_zero (S := S128) hz1, View.ld_unit_zero (S := S128x64) hz2, View.ld_unit_zero (S := S64) hz1, View.ld_unit_zero (S := S512x512) hz2, View.ld_unit_zero (S := S512) hz1]

/-- Middle step: what the step before left, plus the tile's contribution. -/
theorem sout_B (c : Dev nD) (i : grid0.Coords) (arg2 : Memref sig .tc .vmem S1024x512 .f32) (harg2 : arg2.IsWhole) (arg3 : Memref sig .tc .vmem S64x512 .f32) (harg3 : arg3.IsWhole) (arg4 : Memref sig .tc .vmem S512x128 .f32) (harg4 : arg4.IsWhole) (arg5 : Memref sig .tc .vmem S128 .f32) (harg5 : arg5.IsWhole) (arg6 : Memref sig .tc .vmem S128x64 .f32) (harg6 : arg6.IsWhole) (arg7 : Memref sig .tc .vmem S64 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512 .f32) (harg10 : arg10.IsWhole) (arg11 : Memref sig .tc .vmem S1024x512 .f32) (harg11 : arg11.IsWhole) (arg12 : Memref sig .tc .vmem S1x64x512 .f32) (harg12 : arg12.IsWhole) (arg13 : Memref sig .tc .vmem S64x512 .f32) (harg13 : arg13.IsWhole) (hc0 : ¬cond0_0 i) (hc1 : ¬cond0_1 i) (x0 : Vec F S1024x512 .f32) (x1 : Vec F S64x512 .f32) (x2 : Vec F S512x128 .f32) (x3 : Vec F S128 .f32) (x4 : Vec F S128x64 .f32) (x5 : Vec F S64 .f32) (x6 : Vec F S512x512 .f32) (x7 : Vec F S512x512 .f32) (x8 : Vec F S512 .f32) (xs0 : Vec F S64x512 .f32) :
    sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 = step x0 x1 x2 x3 x4 x5 x6 x7 x8 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg13.read_unread,
    View.ld_unit_zero (S := S1024x512) hz2, View.ld_unit_zero (S := S64x512) hz2, View.ld_unit_zero (S := S512x128) hz2, View.ld_unit_zero (S := S128) hz1, View.ld_unit_zero (S := S128x64) hz2, View.ld_unit_zero (S := S64) hz1, View.ld_unit_zero (S := S512x512) hz2, View.ld_unit_zero (S := S512) hz1]

/-- Last step: the same addition. -/
theorem sout_C (c : Dev nD) (i : grid0.Coords) (arg2 : Memref sig .tc .vmem S1024x512 .f32) (harg2 : arg2.IsWhole) (arg3 : Memref sig .tc .vmem S64x512 .f32) (harg3 : arg3.IsWhole) (arg4 : Memref sig .tc .vmem S512x128 .f32) (harg4 : arg4.IsWhole) (arg5 : Memref sig .tc .vmem S128 .f32) (harg5 : arg5.IsWhole) (arg6 : Memref sig .tc .vmem S128x64 .f32) (harg6 : arg6.IsWhole) (arg7 : Memref sig .tc .vmem S64 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512 .f32) (harg10 : arg10.IsWhole) (arg11 : Memref sig .tc .vmem S1024x512 .f32) (harg11 : arg11.IsWhole) (arg12 : Memref sig .tc .vmem S1x64x512 .f32) (harg12 : arg12.IsWhole) (arg13 : Memref sig .tc .vmem S64x512 .f32) (harg13 : arg13.IsWhole) (hc0 : ¬cond0_0 i) (hc1 : cond0_1 i) (x0 : Vec F S1024x512 .f32) (x1 : Vec F S64x512 .f32) (x2 : Vec F S512x128 .f32) (x3 : Vec F S128 .f32) (x4 : Vec F S128x64 .f32) (x5 : Vec F S64 .f32) (x6 : Vec F S512x512 .f32) (x7 : Vec F S512x512 .f32) (x8 : Vec F S512 .f32) (xs0 : Vec F S64x512 .f32) :
    sout0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 = step x0 x1 x2 x3 x4 x5 x6 x7 x8 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg13.read_unread,
    View.ld_unit_zero (S := S1024x512) hz2, View.ld_unit_zero (S := S64x512) hz2, View.ld_unit_zero (S := S512x128) hz2, View.ld_unit_zero (S := S128) hz1, View.ld_unit_zero (S := S128x64) hz2, View.ld_unit_zero (S := S64) hz1, View.ld_unit_zero (S := S512x512) hz2, View.ld_unit_zero (S := S512) hz1]

/-- Last step: the core's slot of the second output holds the rate times the accumulator just stored. -/
theorem out10_C (c : Dev nD) (i : grid0.Coords) (arg2 : Memref sig .tc .vmem S1024x512 .f32) (harg2 : arg2.IsWhole) (arg3 : Memref sig .tc .vmem S64x512 .f32) (harg3 : arg3.IsWhole) (arg4 : Memref sig .tc .vmem S512x128 .f32) (harg4 : arg4.IsWhole) (arg5 : Memref sig .tc .vmem S128 .f32) (harg5 : arg5.IsWhole) (arg6 : Memref sig .tc .vmem S128x64 .f32) (harg6 : arg6.IsWhole) (arg7 : Memref sig .tc .vmem S64 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512 .f32) (harg10 : arg10.IsWhole) (arg11 : Memref sig .tc .vmem S1024x512 .f32) (harg11 : arg11.IsWhole) (arg12 : Memref sig .tc .vmem S1x64x512 .f32) (harg12 : arg12.IsWhole) (arg13 : Memref sig .tc .vmem S64x512 .f32) (harg13 : arg13.IsWhole) (hc0 : ¬cond0_0 i) (hc1 : cond0_1 i) (x0 : Vec F S1024x512 .f32) (x1 : Vec F S64x512 .f32) (x2 : Vec F S512x128 .f32) (x3 : Vec F S128 .f32) (x4 : Vec F S128x64 .f32) (x5 : Vec F S64 .f32) (x6 : Vec F S512x512 .f32) (x7 : Vec F S512x512 .f32) (x8 : Vec F S512 .f32) (xs0 : Vec F S64x512 .f32) :
    out0_C_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 = k0_pay2 (step x0 x1 x2 x3 x4 x5 x6 x7 x8 xs0) := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0)]
  unfold kernelRun0_C
  dsimp only
  sl_unfold_words
  rw [View.canon_unit_zero hz3, View.readCov_unit_zero (S := S64x512) _ hz2]
  simp only [View.readAt_eq_ld, harg2.read_unread, harg3.read_unread, harg4.read_unread, harg5.read_unread, harg6.read_unread, harg7.read_unread, harg8.read_unread, harg9.read_unread, harg10.read_unread, harg13.read_unread,
    View.ld_unit_zero (S := S1024x512) hz2, View.ld_unit_zero (S := S64x512) hz2, View.ld_unit_zero (S := S512x128) hz2, View.ld_unit_zero (S := S128) hz1, View.ld_unit_zero (S := S128x64) hz2, View.ld_unit_zero (S := S64) hz1, View.ld_unit_zero (S := S512x512) hz2, View.ld_unit_zero (S := S512) hz1]

/-- Every step: the first output's block is the tile's selected states. -/
theorem out9_A (c : Dev nD) (i : grid0.Coords) (arg2 : Memref sig .tc .vmem S1024x512 .f32) (harg2 : arg2.IsWhole) (arg3 : Memref sig .tc .vmem S64x512 .f32) (harg3 : arg3.IsWhole) (arg4 : Memref sig .tc .vmem S512x128 .f32) (harg4 : arg4.IsWhole) (arg5 : Memref sig .tc .vmem S128 .f32) (harg5 : arg5.IsWhole) (arg6 : Memref sig .tc .vmem S128x64 .f32) (harg6 : arg6.IsWhole) (arg7 : Memref sig .tc .vmem S64 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512 .f32) (harg10 : arg10.IsWhole) (arg11 : Memref sig .tc .vmem S1024x512 .f32) (harg11 : arg11.IsWhole) (arg12 : Memref sig .tc .vmem S1x64x512 .f32) (harg12 : arg12.IsWhole) (arg13 : Memref sig .tc .vmem S64x512 .f32) (harg13 : arg13.IsWhole) (hc0 : cond0_0 i) (hc1 : ¬cond0_1 i) (x0 : Vec F S1024x512 .f32) (x1 : Vec F S64x512 .f32) (x2 : Vec F S512x128 .f32) (x3 : Vec F S128 .f32) (x4 : Vec F S128x64 .f32) (x5 : Vec F S64 .f32) (x6 : Vec F S512x512 .f32) (x7 : Vec F S512x512 .f32) (x8 : Vec F S512 .f32) :
    out0_A_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 = k0_pay6 x0 x2 x3 x4 x5 x1 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg13.read_unread,
    View.ld_unit_zero (S := S1024x512) hz2, View.ld_unit_zero (S := S64x512) hz2, View.ld_unit_zero (S := S512x128) hz2, View.ld_unit_zero (S := S128) hz1, View.ld_unit_zero (S := S128x64) hz2, View.ld_unit_zero (S := S64) hz1, View.ld_unit_zero (S := S512x512) hz2, View.ld_unit_zero (S := S512) hz1]

theorem out9_B (c : Dev nD) (i : grid0.Coords) (arg2 : Memref sig .tc .vmem S1024x512 .f32) (harg2 : arg2.IsWhole) (arg3 : Memref sig .tc .vmem S64x512 .f32) (harg3 : arg3.IsWhole) (arg4 : Memref sig .tc .vmem S512x128 .f32) (harg4 : arg4.IsWhole) (arg5 : Memref sig .tc .vmem S128 .f32) (harg5 : arg5.IsWhole) (arg6 : Memref sig .tc .vmem S128x64 .f32) (harg6 : arg6.IsWhole) (arg7 : Memref sig .tc .vmem S64 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512 .f32) (harg10 : arg10.IsWhole) (arg11 : Memref sig .tc .vmem S1024x512 .f32) (harg11 : arg11.IsWhole) (arg12 : Memref sig .tc .vmem S1x64x512 .f32) (harg12 : arg12.IsWhole) (arg13 : Memref sig .tc .vmem S64x512 .f32) (harg13 : arg13.IsWhole) (hc0 : ¬cond0_0 i) (hc1 : ¬cond0_1 i) (x0 : Vec F S1024x512 .f32) (x1 : Vec F S64x512 .f32) (x2 : Vec F S512x128 .f32) (x3 : Vec F S128 .f32) (x4 : Vec F S128x64 .f32) (x5 : Vec F S64 .f32) (x6 : Vec F S512x512 .f32) (x7 : Vec F S512x512 .f32) (x8 : Vec F S512 .f32) (xs0 : Vec F S64x512 .f32) :
    out0_B_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 = k0_pay6 x0 x2 x3 x4 x5 x1 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg13.read_unread,
    View.ld_unit_zero (S := S1024x512) hz2, View.ld_unit_zero (S := S64x512) hz2, View.ld_unit_zero (S := S512x128) hz2, View.ld_unit_zero (S := S128) hz1, View.ld_unit_zero (S := S128x64) hz2, View.ld_unit_zero (S := S64) hz1, View.ld_unit_zero (S := S512x512) hz2, View.ld_unit_zero (S := S512) hz1]

theorem out9_C (c : Dev nD) (i : grid0.Coords) (arg2 : Memref sig .tc .vmem S1024x512 .f32) (harg2 : arg2.IsWhole) (arg3 : Memref sig .tc .vmem S64x512 .f32) (harg3 : arg3.IsWhole) (arg4 : Memref sig .tc .vmem S512x128 .f32) (harg4 : arg4.IsWhole) (arg5 : Memref sig .tc .vmem S128 .f32) (harg5 : arg5.IsWhole) (arg6 : Memref sig .tc .vmem S128x64 .f32) (harg6 : arg6.IsWhole) (arg7 : Memref sig .tc .vmem S64 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512 .f32) (harg10 : arg10.IsWhole) (arg11 : Memref sig .tc .vmem S1024x512 .f32) (harg11 : arg11.IsWhole) (arg12 : Memref sig .tc .vmem S1x64x512 .f32) (harg12 : arg12.IsWhole) (arg13 : Memref sig .tc .vmem S64x512 .f32) (harg13 : arg13.IsWhole) (hc0 : ¬cond0_0 i) (hc1 : cond0_1 i) (x0 : Vec F S1024x512 .f32) (x1 : Vec F S64x512 .f32) (x2 : Vec F S512x128 .f32) (x3 : Vec F S128 .f32) (x4 : Vec F S128x64 .f32) (x5 : Vec F S64 .f32) (x6 : Vec F S512x512 .f32) (x7 : Vec F S512x512 .f32) (x8 : Vec F S512 .f32) (xs0 : Vec F S64x512 .f32) :
    out0_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 = k0_pay6 x0 x2 x3 x4 x5 x1 := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg13.read_unread,
    View.ld_unit_zero (S := S1024x512) hz2, View.ld_unit_zero (S := S64x512) hz2, View.ld_unit_zero (S := S512x128) hz2, View.ld_unit_zero (S := S128) hz1, View.ld_unit_zero (S := S128x64) hz2, View.ld_unit_zero (S := S64) hz1, View.ld_unit_zero (S := S512x512) hz2, View.ld_unit_zero (S := S512) hz1]

end Cert.KernelIdeal.Pieces

end
-- ==== Proof.Blocks.lean ====
/-
  The blocks the body finds at each grid step.

  The grid has 128 steps, step `t` being core `t / 64` at its `t % 64`-th tile.  The batch array is cut into 128
  tiles of 1024 rows, step `t` taking tile `t`: row `r` of the tile is row `1024·t + r` of the batch.  Every parameter
  array is handed over whole at every step; the two halves of the update matrix are the host's slices of its rows
  `0…511` and `512…1023`, taken before the kernel is launched.
-/
import proofs.«140680_j54614804136388_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

theorem points : cfg0.N = 128 := N_0

/-- Row `r` of tile `t`, as a row of the batch. -/
def rowOf (t : Fin cfg0.N) (r : Fin 1024) : Fin 131072 :=
  ⟨1024 * t.val + r.val, by have := t.isLt; have := r.isLt; have hN : cfg0.N = 128 := N_0; omega⟩

theorem idx0 : ∀ t : Fin cfg0.N, win0_0.index t 0 = t.val ∧ win0_0.index t 1 = 0 := (by decide +kernel : ∀ t : Fin grid0.N, _)

/-- The batch's tile at step `t`: entry `(r, k)` is the batch's entry `(1024·t + r, k)`. -/
theorem iblk0_apply (c : Dev nD) (t : Fin cfg0.N) (r : Fin 1024) (k : Fin 512) :
    (iblk m c 0 t : Vec F S1024x512 .f32) (ix2 r k) = m ((c : Thread nD τ).loc main_arg0) (ix2 (rowOf t r) k) := by
  unfold iblk
  rw [View.read_apply]
  show V m c main_arg0 _ = _
  rw [V_main_arg0]
  congr 1
  funext ax
  apply Fin.ext
  match ax with
  | ⟨0, _⟩ => show win0_0.index t 0 * 1024 + 1 * r.val = 1024 * t.val + r.val; rw [(idx0 t).1]; omega
  | ⟨1, _⟩ => show win0_0.index t 1 * 512 + 1 * k.val = k.val; rw [(idx0 t).2]; omega

theorem idx1 : ∀ t : Fin cfg0.N, win0_1.index t 0 = 0 ∧ win0_1.index t 1 = 0 := (by decide +kernel : ∀ t : Fin grid0.N, _)

/-- Window 1's block is its whole array at every step. -/
theorem iblk1_eq (c : Dev nD) (t : Fin cfg0.N) : (iblk m c 1 t : Vec F S64x512 .f32) = V m c main_arg1 := by
  funext y
  unfold iblk
  rw [View.read_apply]
  show V m c main_arg1 _ = V m c main_arg1 y
  congr 1
  funext ax
  apply Fin.ext
  match ax with
  | ⟨0, _⟩ => show win0_1.index t 0 * 64 + 1 * (y 0).val = (y 0).val; rw [(idx1 t).1]; omega
  | ⟨1, _⟩ => show win0_1.index t 1 * 512 + 1 * (y 1).val = (y 1).val; rw [(idx1 t).2]; omega

theorem idx2 : ∀ t : Fin cfg0.N, win0_2.index t 0 = 0 ∧ win0_2.index t 1 = 0 := (by decide +kernel : ∀ t : Fin grid0.N, _)

/-- Window 2's block is its whole array at every step. -/
theorem iblk2_eq (c : Dev nD) (t : Fin cfg0.N) : (iblk m c 2 t : Vec F S512x128 .f32) = V m c main_arg2 := by
  funext y
  unfold iblk
  rw [View.read_apply]
  show V m c main_arg2 _ = V m c main_arg2 y
  congr 1
  funext ax
  apply Fin.ext
  match ax with
  | ⟨0, _⟩ => show win0_2.index t 0 * 512 + 1 * (y 0).val = (y 0).val; rw [(idx2 t).1]; omega
  | ⟨1, _⟩ => show win0_2.index t 1 * 128 + 1 * (y 1).val = (y 1).val; rw [(idx2 t).2]; omega

theorem idx3 : ∀ t : Fin cfg0.N, win0_3.index t 0 = 0 := (by decide +kernel : ∀ t : Fin grid0.N, _)

/-- Window 3's block is its whole array at every step. -/
theorem iblk3_eq (c : Dev nD) (t : Fin cfg0.N) : (iblk m c 3 t : Vec F S128 .f32) = V m c main_arg3 := by
  funext y
  unfold iblk
  rw [View.read_apply]
  show V m c main_arg3 _ = V m c main_arg3 y
  congr 1
  funext ax
  apply Fin.ext
  match ax with
  | ⟨0, _⟩ => show win0_3.index t 0 * 128 + 1 * (y 0).val = (y 0).val; rw [idx3 t]; omega

theorem idx4 : ∀ t : Fin cfg0.N, win0_4.index t 0 = 0 ∧ win0_4.index t 1 = 0 := (by decide +kernel : ∀ t : Fin grid0.N, _)

/-- Window 4's block is its whole array at every step. -/
theorem iblk4_eq (c : Dev nD) (t : Fin cfg0.N) : (iblk m c 4 t : Vec F S128x64 .f32) = V m c main_arg4 := by
  funext y
  unfold iblk
  rw [View.read_apply]
  show V m c main_arg4 _ = V m c main_arg4 y
  congr 1
  funext ax
  apply Fin.ext
  match ax with
  | ⟨0, _⟩ => show win0_4.index t 0 * 128 + 1 * (y 0).val = (y 0).val; rw [(idx4 t).1]; omega
  | ⟨1, _⟩ => show win0_4.index t 1 * 64 + 1 * (y 1).val = (y 1).val; rw [(idx4 t).2]; omega

theorem idx5 : ∀ t : Fin cfg0.N, win0_5.index t 0 = 0 := (by decide +kernel : ∀ t : Fin grid0.N, _)

/-- Window 5's block is its whole array at every step. -/
theorem iblk5_eq (c : Dev nD) (t : Fin cfg0.N) : (iblk m c 5 t : Vec F S64 .f32) = V m c main_arg5 := by
  funext y
  unfold iblk
  rw [View.read_apply]
  show V m c main_arg5 _ = V m c main_arg5 y
  congr 1
  funext ax
  apply Fin.ext
  match ax with
  | ⟨0, _⟩ => show win0_5.index t 0 * 64 + 1 * (y 0).val = (y 0).val; rw [idx5 t]; omega

theorem idx6 : ∀ t : Fin cfg0.N, win0_6.index t 0 = 0 ∧ win0_6.index t 1 = 0 := (by decide +kernel : ∀ t : Fin grid0.N, _)

/-- Window 6's block is its whole array at every step. -/
theorem iblk6_eq (c : Dev nD) (t : Fin cfg0.N) : (iblk m c 6 t : Vec F S512x512 .f32) = V m c main_v0 := by
  funext y
  unfold iblk
  rw [View.read_apply]
  show V m c main_v0 _ = V m c main_v0 y
  congr 1
  funext ax
  apply Fin.ext
  match ax with
  | ⟨0, _⟩ => show win0_6.index t 0 * 512 + 1 * (y 0).val = (y 0).val; rw [(idx6 t).1]; omega
  | ⟨1, _⟩ => show win0_6.index t 1 * 512 + 1 * (y 1).val = (y 1).val; rw [(idx6 t).2]; omega

theorem idx7 : ∀ t : Fin cfg0.N, win0_7.index t 0 = 0 ∧ win0_7.index t 1 = 0 := (by decide +kernel : ∀ t : Fin grid0.N, _)

/-- Window 7's block is its whole array at every step. -/
theorem iblk7_eq (c : Dev nD) (t : Fin cfg0.N) : (iblk m c 7 t : Vec F S512x512 .f32) = V m c main_v1 := by
  funext y
  unfold iblk
  rw [View.read_apply]
  show V m c main_v1 _ = V m c main_v1 y
  congr 1
  funext ax
  apply Fin.ext
  match ax with
  | ⟨0, _⟩ => show win0_7.index t 0 * 512 + 1 * (y 0).val = (y 0).val; rw [(idx7 t).1]; omega
  | ⟨1, _⟩ => show win0_7.index t 1 * 512 + 1 * (y 1).val = (y 1).val; rw [(idx7 t).2]; omega

theorem idx8 : ∀ t : Fin cfg0.N, win0_8.index t 0 = 0 := (by decide +kernel : ∀ t : Fin grid0.N, _)

/-- Window 8's block is its whole array at every step. -/
theorem iblk8_eq (c : Dev nD) (t : Fin cfg0.N) : (iblk m c 8 t : Vec F S512 .f32) = V m c main_arg7 := by
  funext y
  unfold iblk
  rw [View.read_apply]
  show V m c main_arg7 _ = V m c main_arg7 y
  congr 1
  funext ax
  apply Fin.ext
  match ax with
  | ⟨0, _⟩ => show win0_8.index t 0 * 512 + 1 * (y 0).val = (y 0).val; rw [idx8 t]; omega

/-- The upper half of the update matrix, as the region finds it: the host's slice of rows `0…511`. -/
theorem V_top (c : Dev nD) : (V m c main_v0 : Vec F S512x512 .f32)
    = extractStridedSlice S512x512 ![0, 0] (m ((c : Thread nD τ).loc main_arg6)) slices_S1024x512_S512x512_0_0 := by
  show StableHlo.after hostOps0 (fun b => m (c, b)) (Proc.devRef .tc main_v0) = _
  after_results

/-- The lower half: the host's slice of rows `512…1023`. -/
theorem V_bot (c : Dev nD) : (V m c main_v1 : Vec F S512x512 .f32)
    = extractStridedSlice S512x512 ![512, 0] (m ((c : Thread nD τ).loc main_arg6)) slices_S1024x512_S512x512_512_0 := by
  show StableHlo.after hostOps0 (fun b => m (c, b)) (Proc.devRef .tc main_v1) = _
  after_results

/-- Entry `(k, d)` of the upper half is entry `(k, d)` of the update matrix. -/
theorem V_top_apply (c : Dev nD) (k d : Fin 512) :
    (V m c main_v0 : Vec F S512x512 .f32) (ix2 k d) = m ((c : Thread nD τ).loc main_arg6) (ix2 (⟨k.val, by omega⟩ : Fin 1024) d) := by
  rw [V_top]
  refine extractStridedSlice_apply _ _ _ _ _ fun ax => ?_
  match ax with
  | ⟨0, _⟩ => show k.val = 0 + k.val; omega
  | ⟨1, _⟩ => show d.val = 0 + d.val; omega

/-- Entry `(k, d)` of the lower half is entry `(512 + k, d)` of the update matrix. -/
theorem V_bot_apply (c : Dev nD) (k d : Fin 512) :
    (V m c main_v1 : Vec F S512x512 .f32) (ix2 k d) = m ((c : Thread nD τ).loc main_arg6) (ix2 (⟨512 + k.val, by omega⟩ : Fin 1024) d) := by
  rw [V_bot]
  refine extractStridedSlice_apply _ _ _ _ _ fun ax => ?_
  match ax with
  | ⟨0, _⟩ => show 512 + k.val = 512 + k.val; rfl
  | ⟨1, _⟩ => show d.val = 0 + d.val; omega

end Cert.KernelIdeal.Blocks

end
-- ==== Proof.ScaleLaw.lean ====
/-
  The one law of this certificate that is not a regrouping of sums.

  The kernel scales each core's accumulated outer-product sum by the update rate and the host adds the two
  scaled halves to the old states; the reference scales the whole batch sum once.  On the extended reals
  `c * (a + b) = c * a + c * b` can fail (at `c = ⊤`, or at a negative `c` against infinities of opposite
  signs), but it holds for every `a`, `b` when `c` is a nonnegative real.  The rate's binary word
  `0x3C23D70A` denotes such a number: a positive normal float.
-/
import Idealize.ShloMosaic.PureOps.Ideal

noncomputable section

namespace Cert.StateUpdate

open Idealize.ShloMosaic

/-- The update rate: what the word `0x3C23D70A` denotes at the exact instance. -/
def rate : EReal := Ideal.ofBits .f32 0x3C23D70A#32

/-- The rate is a real number, and not a negative one. -/
theorem rate_real : ∃ r : ℝ, 0 ≤ r ∧ rate = (r : EReal) := by
  refine ⟨(1 * ((2 ^ 23 + 2348810 : ℕ) : ℝ) * (2 : ℝ) ^ ((120 : ℤ) - (2 ^ (8 - 1) - 1) - 23)), by positivity, ?_⟩
  simp [rate, Ideal.ofBits, Ideal.ieee]

theorem rate_nonneg : 0 ≤ rate := by
  obtain ⟨r, hr, e⟩ := rate_real
  rw [e]; exact_mod_cast hr

theorem rate_ne_top : rate ≠ ⊤ := by
  obtain ⟨r, _, e⟩ := rate_real
  rw [e]; exact EReal.coe_ne_top r

/-- Scaling by the rate distributes over the sum of any two extended reals. -/
theorem rate_mul_add (a b : EReal) : rate * (a + b) = rate * a + rate * b :=
  EReal.left_distrib_of_nonneg_of_ne_top rate_nonneg rate_ne_top a b

end Cert.StateUpdate

end
-- ==== Proof.LibBlockedSum.lean ====
/-
  A finite sum taken block by block: an axis of `n = nb · bs` positions cut into `nb` consecutive blocks of `bs`.

  `blkIdx hn bs k q` is position `q` of block `k` (that is `bs · k + q`), `blockSum hn bs g k` the sum of `g` over block
  `k`, and `partialSum hn bs g k` the sum over the blocks `0 … k`.  In any commutative monoid the partial sums obey the
  recurrence of an accumulator that adds one block per step (`partialSum_zero`, `partialSum_succ`), and the partial
  sum after the last block is the sum over the whole axis (`partialSum_last`): the pairs (block, position in the
  block) enumerate the axis exactly once.  Only associativity and commutativity of the addition are used, so all of
  this holds on the extended reals as it stands, with no finiteness assumption.  This is the arithmetic of a matrix
  product whose contracted axis is visited block by block into an accumulator.
-/
import Mathlib.Algebra.BigOperators.Fin
import Mathlib.Algebra.BigOperators.Intervals
import Mathlib.Logic.Equiv.Fin.Basic

namespace BlockedSum

/-- Position `q` of block `k` on an axis of `n` positions cut into blocks of `bs` (reduced modulo `n` so that it is a
    position for every `k`; for a block that exists nothing is reduced: `blkIdx_val`). -/
def blkIdx {n : ℕ} (hn : 0 < n) (bs : ℕ) (k : ℕ) (q : Fin bs) : Fin n := ⟨(bs * k + q.val) % n, Nat.mod_lt _ hn⟩

theorem blkIdx_val {n nb bs : ℕ} (hn : 0 < n) (h : nb * bs = n) {k : ℕ} (hk : k < nb) (q : Fin bs) :
    (blkIdx hn bs k q).val = bs * k + q.val := by
  show (bs * k + q.val) % n = _
  apply Nat.mod_eq_of_lt
  have hq := q.isLt
  calc bs * k + q.val < bs * k + bs := by omega
    _ = bs * (k + 1) := (Nat.mul_succ bs k).symm
    _ ≤ bs * nb := Nat.mul_le_mul_left bs hk
    _ = n := by rw [Nat.mul_comm]; exact h

/-- The pairs (block, position in the block) are the positions of the axis. -/
def blkEquiv {n nb bs : ℕ} (h : nb * bs = n) : Fin nb × Fin bs ≃ Fin n := finProdFinEquiv.trans (finCongr h)

theorem blkEquiv_apply {n nb bs : ℕ} (hn : 0 < n) (h : nb * bs = n) (k : Fin nb) (q : Fin bs) :
    blkEquiv h (k, q) = blkIdx hn bs k.val q := by
  apply Fin.ext
  rw [blkIdx_val hn h k.isLt]
  show q.val + bs * k.val = _
  omega

variable {M : Type*} [AddCommMonoid M] {n : ℕ}

/-- The sum of `g` over block `k`. -/
def blockSum (hn : 0 < n) (bs : ℕ) (g : Fin n → M) (k : ℕ) : M := ∑ q : Fin bs, g (blkIdx hn bs k q)

/-- The sum of `g` over the blocks `0 … k`. -/
def partialSum (hn : 0 < n) (bs : ℕ) (g : Fin n → M) (k : ℕ) : M := ∑ k' ∈ Finset.range (k + 1), blockSum hn bs g k'

theorem partialSum_zero (hn : 0 < n) (bs : ℕ) (g : Fin n → M) : partialSum hn bs g 0 = blockSum hn bs g 0 := by
  unfold partialSum
  rw [Finset.sum_range_one]

theorem partialSum_succ (hn : 0 < n) (bs : ℕ) (g : Fin n → M) (k : ℕ) :
    partialSum hn bs g (k + 1) = partialSum hn bs g k + blockSum hn bs g (k + 1) := by
  unfold partialSum
  rw [Finset.sum_range_succ]

/-- All the blocks together are the whole axis. -/
theorem partialSum_last {nb bs : ℕ} (hn : 0 < n) (h : nb * bs = n) (g : Fin n → M) {k : ℕ} (hk : k + 1 = nb) :
    partialSum hn bs g k = ∑ i : Fin n, g i := by
  unfold partialSum
  rw [hk]
  calc ∑ k' ∈ Finset.range nb, blockSum hn bs g k'
      = ∑ k' : Fin nb, blockSum hn bs g k'.val := (Fin.sum_univ_eq_sum_range (fun k' => blockSum hn bs g k') nb).symm
    _ = ∑ k' : Fin nb, ∑ q : Fin bs, g (blkEquiv h (k', q)) := by simp only [blockSum, blkEquiv_apply hn h]
    _ = ∑ p : Fin nb × Fin bs, g (blkEquiv h p) := (Fintype.sum_prod_type (fun p : Fin nb × Fin bs => g (blkEquiv h p))).symm
    _ = ∑ i : Fin n, g i := (blkEquiv h).sum_comp g

end BlockedSum
-- ==== Proof.Spec.lean ====
/-
  What the two programs compute, row by row, over the extended reals.

  For one batch row `x` (512 numbers) and the parameters: a hidden layer `max (x·W1 + c1) 0` of 128 units; 64 logits
  `h·W2 + c2`; their softmax, computed as both programs do — subtract the row's greatest logit (a fold of `max` from
  minus infinity, capped below by minus infinity once more), exponentiate, divide by the sum of the exponentials —;
  the selected state `Σ_s weight_s · R_s`, a vector of 512; and the update direction
  `tanh (x·WT + selected·WB + cu)`, where `WT` and `WB` are the upper and lower 512 rows of the 1024×512 update
  matrix (the product of the row `[x, selected]` of length 1024 with that matrix, cut at its middle).

  The first result is the selected state of every row.  The second is the matrix of reference states moved by the
  rate times the sum over all 131072 rows `b` of `weight_b(s) · pushed_b(d)`.  The kernel takes that sum tile by tile
  (128 tiles of 1024 rows), core 0 adding tiles 0…63 and core 1 tiles 64…127, each from zero, scales each core's
  total by the rate, and the host adds the two scaled totals to the states one after the other.  The two
  arrangements agree on the extended reals with no finiteness assumption: the tiles partition the rows, addition
  is associative and commutative, and scaling by the rate — a nonnegative real — distributes over a sum of two.
-/
import proofs.«140680_j54614804136388_2_alg».proof.Proof.ScaleLaw
import proofs.«140680_j54614804136388_2_alg».proof.Proof.LibBlockedSum
import Idealize.ShloMosaic.PureOps.Ideal.Laws
import Idealize.ShloMosaic.Lib.ValueIdx

noncomputable section

open scoped BigOperators

namespace Cert.StateUpdate

open Idealize.ShloMosaic

/-- Minus infinity, as the word both programs start their row maximum from. -/
def negInf : EReal := Ideal.ofBits .f32 0xFF800000#32

/-- Zero, as the word both programs write it. -/
def zeroW : EReal := Ideal.ofBits .f32 0x00000000#32

theorem zeroW_eq : zeroW = 0 := Ideal.ofBits_zero_f32

/-- The parameters, each entry named by its coordinates. -/
structure Params where
  W1 : Fin 512 → Fin 128 → EReal
  c1 : Fin 128 → EReal
  W2 : Fin 128 → Fin 64 → EReal
  c2 : Fin 64 → EReal
  R : Fin 64 → Fin 512 → EReal
  WT : Fin 512 → Fin 512 → EReal
  WB : Fin 512 → Fin 512 → EReal
  cu : Fin 512 → EReal

variable (P : Params)

/-- Hidden unit `j` of a row. -/
def hidden (x : Fin 512 → EReal) (j : Fin 128) : EReal := max (∑ k : Fin 512, x k * P.W1 k j + P.c1 j) zeroW

/-- Logit `s` of a row. -/
def logit (x : Fin 512 → EReal) (s : Fin 64) : EReal := ∑ j : Fin 128, hidden P x j * P.W2 j s + P.c2 s

/-- The row's greatest logit. -/
def peak (x : Fin 512 → EReal) : EReal := max negInf ((Finset.univ : Finset (Fin 64)).fold max negInf (logit P x))

/-- The exponential of a logit's distance below the peak. -/
def expo (x : Fin 512 → EReal) (s : Fin 64) : EReal := Ideal.exp (logit P x s - peak P x)

/-- The softmax weight of state `s` for a row. -/
def weight (x : Fin 512 → EReal) (s : Fin 64) : EReal := Ideal.div (expo P x s) (∑ s' : Fin 64, expo P x s')

/-- Entry `d` of the row's selected state. -/
def chosen (x : Fin 512 → EReal) (d : Fin 512) : EReal := ∑ s : Fin 64, weight P x s * P.R s d

/-- Entry `d` of the row's update direction. -/
def pushed (x : Fin 512 → EReal) (d : Fin 512) : EReal :=
  Ideal.tanh ((∑ k : Fin 512, x k * P.WT k d + ∑ k : Fin 512, chosen P x k * P.WB k d) + P.cu d)

variable (X : Fin 131072 → Fin 512 → EReal)

/-- What batch row `b` contributes to entry `(s, d)` of the states' update. -/
def term (s : Fin 64) (d : Fin 512) (b : Fin 131072) : EReal := weight P (X b) s * pushed P (X b) d

/-- The updated states, the whole batch summed at once. -/
def newStates (s : Fin 64) (d : Fin 512) : EReal := P.R s d + rate * ∑ b : Fin 131072, term P X s d b

theorem rows_pos : 0 < 131072 := by norm_num

/-- The contributions of the 1024 rows of tile `t`. -/
def tileSum (s : Fin 64) (d : Fin 512) (t : ℕ) : EReal := BlockedSum.blockSum rows_pos 1024 (term P X s d) t

/-- What core `c` accumulates: from zero, its 64 tiles. -/
def coreSum (s : Fin 64) (d : Fin 512) (c : ℕ) : EReal := zeroW + ∑ j ∈ Finset.range 64, tileSum P X s d (64 * c + j)

/-- The updated states, each core's total scaled and added in turn. -/
def newStatesByCores (s : Fin 64) (d : Fin 512) : EReal :=
  (P.R s d + rate * coreSum P X s d 0) + rate * coreSum P X s d 1

/-- The two cores' tiles are all the rows. -/
theorem cores_cover (s : Fin 64) (d : Fin 512) :
    ∑ j ∈ Finset.range 64, tileSum P X s d (64 * 0 + j) + ∑ j ∈ Finset.range 64, tileSum P X s d (64 * 1 + j)
      = ∑ b : Fin 131072, term P X s d b := by
  have h := BlockedSum.partialSum_last (nb := 128) (bs := 1024) rows_pos (by norm_num) (term P X s d) (k := 127) rfl
  rw [← h]
  unfold BlockedSum.partialSum
  rw [show (127 + 1 : ℕ) = 64 + 64 from rfl, Finset.sum_range_add]
  simp only [tileSum, Nat.mul_zero, Nat.zero_add, Nat.mul_one]

/-- Taking the sum core by core and scaling each total gives the same states. -/
theorem newStatesByCores_eq (s : Fin 64) (d : Fin 512) : newStatesByCores P X s d = newStates P X s d := by
  unfold newStatesByCores newStates coreSum
  rw [zeroW_eq, zero_add, zero_add, add_assoc, ← rate_mul_add, cores_cover]

/-! ## The same, over the argument arrays -/

open Idealize.ShloMosaic.ValueIdx

/-- Row `k` of the upper half of the update matrix's 1024 rows. -/
def lo (k : Fin 512) : Fin 1024 := ⟨k.val, by omega⟩

/-- Row `512 + k`: the lower half. -/
def hi (k : Fin 512) : Fin 1024 := ⟨512 + k.val, by omega⟩

/-- The parameters read off the seven parameter arrays (arguments 1 to 7), entry by entry. -/
def paramsOf (R : (⟨2, ![64, 512]⟩ : Shape).Idx → EReal) (W1 : (⟨2, ![512, 128]⟩ : Shape).Idx → EReal)
    (c1 : (⟨1, ![128]⟩ : Shape).Idx → EReal) (W2 : (⟨2, ![128, 64]⟩ : Shape).Idx → EReal)
    (c2 : (⟨1, ![64]⟩ : Shape).Idx → EReal) (WU : (⟨2, ![1024, 512]⟩ : Shape).Idx → EReal)
    (cu : (⟨1, ![512]⟩ : Shape).Idx → EReal) : Params where
  W1 k j := W1 (ix2 k j)
  c1 j := c1 (ix1 j)
  W2 j s := W2 (ix2 j s)
  c2 s := c2 (ix1 s)
  R s d := R (ix2 s d)
  WT k d := WU (ix2 (lo k) d)
  WB k d := WU (ix2 (hi k) d)
  cu d := cu (ix1 d)

/-- The batch array (argument 0) as its rows. -/
def rowsOf (X : (⟨2, ![131072, 512]⟩ : Shape).Idx → EReal) : Fin 131072 → Fin 512 → EReal := fun b k => X (ix2 b k)

/-- The first result as a whole array: every row's selected state. -/
def selectedArr (Q : Params) (X : (⟨2, ![131072, 512]⟩ : Shape).Idx → EReal) : (⟨2, ![131072, 512]⟩ : Shape).Idx → EReal :=
  fun i => chosen Q (rowsOf X (i 0)) (i 1)

/-- The second result as a whole array: the updated states. -/
def newStatesArr (Q : Params) (X : (⟨2, ![131072, 512]⟩ : Shape).Idx → EReal) : (⟨2, ![64, 512]⟩ : Shape).Idx → EReal :=
  fun i => newStates Q (rowsOf X) (i 0) (i 1)

end Cert.StateUpdate

end
-- ==== Proof.LibRowForms.lean ====
/-
  Row reductions of a matrix, and a column laid along the rows, read at an index.

  Reducing a matrix `[a, b]` along its second axis gives a vector `[a]` whose entry `i` depends on row `i` alone: for a
  sum it is the sum of the row's `b` entries, for a maximum the fold of `max` over them from the initial value. And a
  column `[b, 1]`, transposed to the row `[1, b]` and copied down to `[a, b]`, has at `(i, j)` entry `j` of the column,
  whatever `i`. Every index is written by its coordinates.
-/
import Idealize.ShloMosaic.PureOps.Ideal.Laws
import Idealize.ShloMosaic.Lib.ValueIdx
import Idealize.ShloMosaic.Lib.ValueLayout

namespace Cert.RowForms

open Idealize.ShloMosaic Idealize.ShloMosaic.ValueIdx

/-- The index of the matrix that reduces to `i` along the second axis and has `k` there is `(i, k)`. -/
theorem lift_row {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext d; apply Fin.ext
  match d with
  | ⟨0, _⟩ => rfl
  | ⟨1, _⟩ => rfl

/-- A float sum along the rows, from the zero word, at `i`: the sum of row `i`. -/
theorem multiReduction_add_rows {a b : ℕ} (src : FVec Ideal ⟨2, ![a, b]⟩ .f32)
    (h : (⟨2, ![a, b]⟩ : Shape).Reduces [1] ⟨1, ![a]⟩) (i : Fin a) :
    multiReduction .add [1] ⟨1, ![a]⟩ src 0x00000000#32 h (.inl rfl) rfl (ix1 i) = ∑ k : Fin b, src (ix2 i k) :=
  (Ideal.multiReduction_add_single src 0x00000000#32 h (.inl rfl) rfl (ix1 i)).trans
    (Finset.sum_congr rfl fun k _ => congrArg src (lift_row h i k))

/-- A float maximum along the rows, from the word of minus infinity, at `i`: the fold of `max` over row `i`. -/
theorem multiReduction_max_rows {a b : ℕ} (src : FVec Ideal ⟨2, ![a, b]⟩ .f32)
    (h : (⟨2, ![a, b]⟩ : Shape).Reduces [1] ⟨1, ![a]⟩) (i : Fin a) :
    multiReduction .maximumf [1] ⟨1, ![a]⟩ src 0xFF800000#32 h (.inl rfl) rfl (ix1 i)
      = (Finset.univ : Finset (Fin b)).fold max (Ideal.ofBits .f32 0xFF800000#32) (fun k => src (ix2 i k)) :=
  (Ideal.multiReduction_maximumf_single src 0xFF800000#32 h (.inl rfl) rfl (ix1 i)).trans
    (congrArg (fun f => Finset.fold max (Ideal.ofBits .f32 0xFF800000#32) f (Finset.univ : Finset (Fin b)))
      (funext fun k => congrArg src (lift_row h i k)))

/-- A column `[b, 1]` transposed to a row `[1, b]` and copied down to `[a, b]` reads, at `(i, j)`, the column at `(j, 0)`. -/
theorem rowOfColumn_apply {α : Type} {a b : ℕ} (col : (⟨2, ![b, 1]⟩ : Shape).Idx → α)
    (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] col ht) hb (ix2 i j) = col (ix2 j (0 : Fin 1)) :=
  (broadcastTo_1b_ab_apply _ hb i j).trans (transpose_ix2_apply col ht (0 : Fin 1) j)

end Cert.RowForms
-- ==== Proof.LibColumnForms.lean ====
/-
  A column vector read at an index.

  Summing a matrix along its rows with the summed axis kept gives a column: the sums, an `[a]` vector, are laid out as
  `[a, 1]`, and the column is then copied along a new second axis to `[a, b]`. Entry `(i, j)` of the result is
  entry `i` of the vector, whatever `j`. The two lemmas below say this one layout step at a time, every index
  written by its coordinates.
-/
import Idealize.ShloMosaic.Lib.Pipeline.Value
import Idealize.ShloMosaic.Lib.ValueIdx

namespace Cert.ColumnForms

open Idealize.ShloMosaic Idealize.ShloMosaic.ValueIdx

variable {α : Type}

/-- A vector `[a]` laid out as a column `[a, 1]` reads, at `(i, u)`, the vector at `i`: the row-major position
    `i · 1 + u` of `(i, u)` is `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` copied along its unit axis to `[a, b]` reads, at `(i, j)`, the column at `(i, 0)`: the first
    coordinate is kept (also when `a = 1`, where it is `0` anyway), the second is the unit axis's only one. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.ColumnForms
-- ==== Proof.LibPlainProduct.lean ====
/-
  A product of an m×k matrix with the TRANSPOSE of an n×k matrix, read at one entry.

  A linear layer `y = x · Wᵀ` with the weight stored [out, in] prints in a kernel as a `tpu.matmul` of the rows with
  `tpu.transpose W` into a zero accumulator, and on the host as a `dot_general` of the rows with `stablehlo.transpose W`;
  both have the dimension numbers of the plain product (contract the left operand's axis 1 with the right operand's
  axis 0, no batch axis). At the ideal values either one, read at entry (a, b), is the sum over the contracted
  coordinate c of `x (a, c) · W (b, c)`: the accumulator is the zero of the extended reals, which `0 + s = s` drops, and the
  transpose only names the entry (c, b) of its result as the entry (b, c) of its operand. Nothing here needs the entries
  to be finite.
-/
import Idealize.ShloMosaic.Lib.StackMember
import Idealize.ShloMosaic.Lib.KernelVsHost
import Idealize.ShloMosaic.Lib.Pipeline.Value
import Idealize.ShloMosaic.Lib.ValueIdx

noncomputable section

open scoped BigOperators

namespace Idealize.ShloMosaic.PlainProduct

open Idealize.ShloMosaic Idealize.ShloMosaic.ValueIdx

variable {m k n : Nat} {φ₁ φ₂ : FTy}

/-- The transpose of an n×k matrix, read at (c, b), is the matrix at (b, c). -/
theorem transpose_swap_apply {α : Type} (W : (⟨2, ![n, k]⟩ : Shape).Idx → α)
    (h : (⟨2, ![n, k]⟩ : Shape).Transposes [1, 0] ⟨2, ![k, n]⟩) (c : Fin k) (b : Fin n) :
    transpose ⟨2, ![k, n]⟩ [1, 0] W h (ix2 c b) = W (ix2 b c) :=
  transpose_apply [1, 0] W h (ix2 c b) (ix2 b c) fun ax => by
    match ax with
    | ⟨0, _⟩ => rfl
    | ⟨1, _⟩ => rfl

/-- A host `dot_general` whose dimension numbers are the plain product's, read at (a, b): the sum over the contracted
    coordinate of the products of the entries. -/
theorem dotGeneral_of_plain (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    Host.dotGeneral D prec A B (ix2 a b) = ∑ c : Fin k, A (ix2 a c) * B (ix2 c b) := by
  subst hD
  exact StackMember.dotGeneral_plain_apply prec A B a b

/-- A kernel's `tpu.matmul` with those dimension numbers into the zero splat, read at (a, b): the same sum. -/
theorem matmul_of_plain (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    matmul D prec A B (constant ⟨2, ![m, n]⟩ .f32 0x00000000#32) (ix2 a b) = ∑ c : Fin k, A (ix2 a c) * B (ix2 c b) := by
  rw [matmul_zero_eq_dotGeneral]
  exact dotGeneral_of_plain D hD prec A B a b

/-- THE HOST'S LINEAR LAYER at an entry: `dot_general` of the rows with the transposed weight is `∑ c, x (a, c) · W (b, c)`. -/
theorem dotGeneral_transposed_apply (D : DotDims ⟨2, ![m, k]⟩ ⟨2, ![k, n]⟩ ⟨2, ![m, n]⟩) (hD : D = DotDims.plain m k n)
    (prec : Option ContractPrecision) (A : FVec Ideal ⟨2, ![m, k]⟩ φ₁) (W : FVec Ideal ⟨2, ![n, k]⟩ φ₂)
    (h : (⟨2, ![n, k]⟩ : Shape).Transposes [1, 0] ⟨2, ![k, n]⟩) (a : Fin m) (b : Fin n) :
    Host.dotGeneral D prec A (transpose ⟨2, ![k, n]⟩ [1, 0] W h) (ix2 a b) = ∑ c : Fin k, A (ix2 a c) * W (ix2 b c) := by
  rw [dotGeneral_of_plain D hD]
  exact Finset.sum_congr rfl fun c _ => by rw [transpose_swap_apply]

/-- THE KERNEL'S LINEAR LAYER at an entry: `tpu.matmul` of the rows with the transposed weight into the zero splat is the
    same sum. -/
theorem matmul_transposed_apply (D : DotDims ⟨2, ![m, k]⟩ ⟨2, ![k, n]⟩ ⟨2, ![m, n]⟩) (hD : D = DotDims.plain m k n)
    (prec : Option ContractPrecision) (A : FVec Ideal ⟨2, ![m, k]⟩ φ₁) (W : FVec Ideal ⟨2, ![n, k]⟩ φ₂)
    (h : (⟨2, ![n, k]⟩ : Shape).Transposes [1, 0] ⟨2, ![k, n]⟩) (a : Fin m) (b : Fin n) :
    matmul D prec A (transpose ⟨2, ![k, n]⟩ [1, 0] W h) (constant ⟨2, ![m, n]⟩ .f32 0x00000000#32) (ix2 a b)
      = ∑ c : Fin k, A (ix2 a c) * W (ix2 b c) := by
  rw [matmul_of_plain D hD]
  exact Finset.sum_congr rfl fun c _ => by rw [transpose_swap_apply]

end Idealize.ShloMosaic.PlainProduct

end
-- ==== Proof.BodyForm.lean ====
/-
  The body's arithmetic, entry by entry.

  One step of the body works on a tile of 1024 batch rows with the parameters at hand. Each value it stores is a pure
  term of the blocks it loaded; this module reads each of those terms at an index and finds the row functions of the
  specification there, at the exact values: the softmax weights of row `r` at `(r, s)`, the selected state of row `r` at
  `(r, d)`, the accumulator plus the sum over the tile's rows of weight times update direction at `(s, d)`, the rate
  times the accumulator, and the zero block.

  At the exact values a format change is the identity and the pointwise operations read through an index by
  computation, so what is left is one small statement per operation that moves entries: a matrix product into the
  zero block is the sum over the contracted coordinate of the products of the entries; a vector laid out as one row
  (or one column) and copied down (or along) reads the vector's entry; a reduction along the rows reads the row's
  sum or the fold of `max` over the row; a cast to the same shape is the identity. The last product contracts the
  row axis of both of its operands — the transposed weights times the update directions —, and its operand indices
  are worked out coordinate by coordinate from its dimension numbers.
-/
import proofs.«140680_j54614804136388_2_alg».proof.Proof.Spec
import proofs.«140680_j54614804136388_2_alg».proof.Proof.LibRowForms
import proofs.«140680_j54614804136388_2_alg».proof.Proof.LibColumnForms
import proofs.«140680_j54614804136388_2_alg».proof.Proof.LibPlainProduct
import proofs.«140680_j54614804136388_2_alg».proof.Proof.Gen.KernelIdeal.Skeleton
import Idealize.ShloMosaic.Lib.ValueLayout
import Idealize.ShloMosaic.PureOps.Ideal.Laws

noncomputable section

open scoped BigOperators

namespace Cert.KernelIdeal.BodyForm

open Cert.KernelIdeal Cert.KernelIdeal.Gen Cert.StateUpdate Idealize.ShloMosaic Idealize.ShloMosaic.ValueIdx

/-! ## The layout steps of the body, read at an index -/

/-- A vector of `n` numbers laid out as one row and copied down `m` rows reads, at `(a, b)`, entry `b` of the vector. -/
theorem rowCopies_apply {α : Type} {m n : ℕ} (c : (⟨1, ![n]⟩ : Shape).Idx → α)
    (h1 : (⟨1, ![n]⟩ : Shape).ShapeCasts ⟨2, ![1, n]⟩) (h2 : (⟨2, ![1, n]⟩ : Shape).Broadcasts ⟨2, ![m, n]⟩) (a : Fin m) (b : Fin n) :
    broadcastTo ⟨2, ![m, n]⟩ (shapeCast ⟨2, ![1, n]⟩ c h1) h2 (ix2 a b) = c (ix1 b) :=
  (broadcastTo_1b_ab_apply _ h2 a b).trans (shapeCast_a_1a_apply c h1 (0 : Fin 1) b)

/-- A vector of `m` numbers laid out as one column and copied along `n` columns reads, at `(a, b)`, entry `a` of the vector. -/
theorem colCopies_apply {α : Type} {m n : ℕ} (c : (⟨1, ![m]⟩ : Shape).Idx → α)
    (h1 : (⟨1, ![m]⟩ : Shape).ShapeCasts ⟨2, ![m, 1]⟩) (h2 : (⟨2, ![m, 1]⟩ : Shape).Broadcasts ⟨2, ![m, n]⟩) (a : Fin m) (b : Fin n) :
    broadcastTo ⟨2, ![m, n]⟩ (shapeCast ⟨2, ![m, 1]⟩ c h1) h2 (ix2 a b) = c (ix1 a) :=
  (ColumnForms.broadcastTo_a1_ab_apply _ h2 a b).trans (ColumnForms.shapeCast_a_a1_apply c h1 a (0 : Fin 1))

/-- A matrix product into the zero block plus a bias row: entry `(a, b)` is the sum over the contracted coordinate of
    the products, plus entry `b` of the bias. -/
theorem affine_apply {m k n : ℕ} {φ₁ φ₂ : FTy} (D : DotDims ⟨2, ![m, k]⟩ ⟨2, ![k, n]⟩ ⟨2, ![m, n]⟩) (hD : D = DotDims.plain m k n)
    (A : FVec Ideal ⟨2, ![m, k]⟩ φ₁) (W : FVec Ideal ⟨2, ![k, n]⟩ φ₂) (c : FVec Ideal ⟨1, ![n]⟩ .f32)
    (h1 : (⟨1, ![n]⟩ : Shape).ShapeCasts ⟨2, ![1, n]⟩) (h2 : (⟨2, ![1, n]⟩ : Shape).Broadcasts ⟨2, ![m, n]⟩) (a : Fin m) (b : Fin n) :
    addf (matmul D none A W (constant (F := Ideal) ⟨2, ![m, n]⟩ .f32 0x00000000#32))
        (broadcastTo ⟨2, ![m, n]⟩ (shapeCast ⟨2, ![1, n]⟩ c h1) h2) (ix2 a b)
      = ∑ c' : Fin k, A (ix2 a c') * W (ix2 c' b) + c (ix1 b) :=
  congrArg₂ (· + ·) (PlainProduct.matmul_of_plain D hD none A W a b) (rowCopies_apply c h1 h2 a b)

/-! ## The softmax of the rows of a matrix, one step at a time -/

/-- Each row's greatest entry — a fold of `max` from minus infinity, capped below by minus infinity — copied along the row. -/
def peakCols {a b : ℕ} (Lg : FVec Ideal ⟨2, ![a, b]⟩ .f32) (hr : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩) : FVec Ideal ⟨2, ![a, b]⟩ .f32 :=
  broadcastTo ⟨2, ![a, b]⟩ (shapeCast ⟨2, ![a, 1]⟩
    (maximumf (broadcast ⟨1, ![a]⟩ (Scalar.ofBits (F := Ideal) .f32 0xFF800000#32))
      (multiReduction .maximumf [1] ⟨1, ![a]⟩ Lg 0xFF800000#32 hr (.inl rfl) rfl)) hc) hb

/-- At `(r, s)`: the capped fold of `max` over row `r`. -/
theorem peakCols_apply {a b : ℕ} (Lg : FVec Ideal ⟨2, ![a, b]⟩ .f32) (hr : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩) (r : Fin a) (s : Fin b) :
    peakCols Lg hr hc hb (ix2 r s)
      = max negInf ((Finset.univ : Finset (Fin b)).fold max negInf (fun k => Lg (ix2 r k))) :=
  (colCopies_apply _ hc hb r s).trans (congrArg (max negInf) (RowForms.multiReduction_max_rows Lg hr r))

/-- Each row's sum, copied along the row. -/
def sumCols {a b : ℕ} (E : FVec Ideal ⟨2, ![a, b]⟩ .f32) (hr : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩) : FVec Ideal ⟨2, ![a, b]⟩ .f32 :=
  broadcastTo ⟨2, ![a, b]⟩ (shapeCast ⟨2, ![a, 1]⟩ (multiReduction .add [1] ⟨1, ![a]⟩ E 0x00000000#32 hr (.inl rfl) rfl) hc) hb

/-- At `(r, s)`: the sum of row `r`. -/
theorem sumCols_apply {a b : ℕ} (E : FVec Ideal ⟨2, ![a, b]⟩ .f32) (hr : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩) (r : Fin a) (s : Fin b) :
    sumCols E hr hc hb (ix2 r s) = ∑ k : Fin b, E (ix2 r k) :=
  (colCopies_apply _ hc hb r s).trans (RowForms.multiReduction_add_rows E hr r)

/-! ## The tile's hidden layer, logits and softmax weights -/

section Tile

variable (P : Params) (x0 : Vec Ideal S1024x512 .f32) (x2 : Vec Ideal S512x128 .f32) (x3 : Vec Ideal S128 .f32)
  (x4 : Vec Ideal S128x64 .f32) (x5 : Vec Ideal S64 .f32)

/-- The hidden layer of the tile's 1024 rows. -/
def hiddenV : FVec Ideal S1024x128 .f32 :=
  maximumf
    (addf (matmul dot_S1024x512_S512x128_S1024x128_1_0_0_1_n_n none (k0_pay4 (F := Ideal) x0)
            (truncf .bf16 x2 bitsLt_bf16_f32 : FVec Ideal S512x128 .bf16) (constant (F := Ideal) S1024x128 .f32 0x00000000#32))
          (broadcastTo S1024x128 (shapeCast S1x128 x3 shapeCasts_S128_S1x128) broadcasts_S1x128_S1024x128))
    (broadcast S1024x128 (Scalar.ofBits (F := Ideal) .f32 0x00000000#32))

/-- Row `r` of the tile's hidden layer is the hidden layer of row `r`. -/
theorem hiddenV_apply (h2 : ∀ k j, x2 (ix2 k j) = P.W1 k j) (h3 : ∀ j, x3 (ix1 j) = P.c1 j) (r : Fin 1024) (j : Fin 128) :
    hiddenV x0 x2 x3 (ix2 r j) = hidden P (fun k => x0 (ix2 r k)) j := by
  have e := affine_apply dot_S1024x512_S512x128_S1024x128_1_0_0_1_n_n rfl (k0_pay4 (F := Ideal) x0)
    (truncf .bf16 x2 bitsLt_bf16_f32 : FVec Ideal S512x128 .bf16) x3 shapeCasts_S128_S1x128 broadcasts_S1x128_S1024x128 r j
  exact (congrArg (max · zeroW) e).trans (congrArg (max · zeroW)
    (congrArg₂ (· + ·) (Finset.sum_congr rfl fun k _ => congrArg (x0 (ix2 r k) * ·) (h2 k j)) (h3 j)))

/-- The logits of the tile's rows. -/
def logitV : FVec Ideal S1024x64 .f32 :=
  addf (matmul dot_S1024x128_S128x64_S1024x64_1_0_0_1_n_n none
          (truncf .bf16 (hiddenV x0 x2 x3) bitsLt_bf16_f32 : FVec Ideal S1024x128 .bf16)
          (truncf .bf16 x4 bitsLt_bf16_f32 : FVec Ideal S128x64 .bf16) (constant (F := Ideal) S1024x64 .f32 0x00000000#32))
       (broadcastTo S1024x64 (shapeCast S1x64 x5 shapeCasts_S64_S1x64) broadcasts_S1x64_S1024x64)

/-- Row `r` of the tile's logits is the logits of row `r`. -/
theorem logitV_apply (h2 : ∀ k j, x2 (ix2 k j) = P.W1 k j) (h3 : ∀ j, x3 (ix1 j) = P.c1 j)
    (h4 : ∀ j s, x4 (ix2 j s) = P.W2 j s) (h5 : ∀ s, x5 (ix1 s) = P.c2 s) (r : Fin 1024) (s : Fin 64) :
    logitV x0 x2 x3 x4 x5 (ix2 r s) = logit P (fun k => x0 (ix2 r k)) s := by
  have e := affine_apply dot_S1024x128_S128x64_S1024x64_1_0_0_1_n_n rfl
    (truncf .bf16 (hiddenV x0 x2 x3) bitsLt_bf16_f32 : FVec Ideal S1024x128 .bf16)
    (truncf .bf16 x4 bitsLt_bf16_f32 : FVec Ideal S128x64 .bf16) x5 shapeCasts_S64_S1x64 broadcasts_S1x64_S1024x64 r s
  exact e.trans (congrArg₂ (· + ·)
    (Finset.sum_congr rfl fun j _ => congrArg₂ (· * ·) (hiddenV_apply P x0 x2 x3 h2 h3 r j) (h4 j s)) (h5 s))

/-- The exponentials of the logits' distances below their rows' peaks. -/
def expV : FVec Ideal S1024x64 .f32 :=
  exp (subf (logitV x0 x2 x3 x4 x5)
    (peakCols (logitV x0 x2 x3 x4 x5) reduces_S1024x64_S1024 shapeCasts_S1024_S1024x1 broadcasts_S1024x1_S1024x64))

/-- Row `r` of them is the exponentials of row `r`. -/
theorem expV_apply (h2 : ∀ k j, x2 (ix2 k j) = P.W1 k j) (h3 : ∀ j, x3 (ix1 j) = P.c1 j)
    (h4 : ∀ j s, x4 (ix2 j s) = P.W2 j s) (h5 : ∀ s, x5 (ix1 s) = P.c2 s) (r : Fin 1024) (s : Fin 64) :
    expV x0 x2 x3 x4 x5 (ix2 r s) = expo P (fun k => x0 (ix2 r k)) s :=
  congrArg₂ (fun a b => Ideal.exp (a - b)) (logitV_apply P x0 x2 x3 x4 x5 h2 h3 h4 h5 r s)
    ((peakCols_apply (logitV x0 x2 x3 x4 x5) reduces_S1024x64_S1024 shapeCasts_S1024_S1024x1 broadcasts_S1024x1_S1024x64 r s).trans
      (congrArg (fun f => max negInf ((Finset.univ : Finset (Fin 64)).fold max negInf f))
        (funext fun k => logitV_apply P x0 x2 x3 x4 x5 h2 h3 h4 h5 r k)))

/-- The softmax weights the body computes are the exponentials over their rows' sums. -/
theorem pay5_eq : k0_pay5 (F := Ideal) x0 x2 x3 x4 x5
    = truncf .bf16 (divf (expV x0 x2 x3 x4 x5)
        (sumCols (expV x0 x2 x3 x4 x5) reduces_S1024x64_S1024 shapeCasts_S1024_S1024x1 broadcasts_S1024x1_S1024x64)) bitsLt_bf16_f32 := rfl

/-- Row `r` of the softmax weights the body computes is the softmax weights of row `r`. -/
theorem weights_apply (h2 : ∀ k j, x2 (ix2 k j) = P.W1 k j) (h3 : ∀ j, x3 (ix1 j) = P.c1 j)
    (h4 : ∀ j s, x4 (ix2 j s) = P.W2 j s) (h5 : ∀ s, x5 (ix1 s) = P.c2 s) (r : Fin 1024) (s : Fin 64) :
    k0_pay5 (F := Ideal) x0 x2 x3 x4 x5 (ix2 r s) = weight P (fun k => x0 (ix2 r k)) s :=
  (congrFun (pay5_eq x0 x2 x3 x4 x5) (ix2 r s)).trans (congrArg₂ Ideal.div (expV_apply P x0 x2 x3 x4 x5 h2 h3 h4 h5 r s)
    ((sumCols_apply (expV x0 x2 x3 x4 x5) reduces_S1024x64_S1024 shapeCasts_S1024_S1024x1 broadcasts_S1024x1_S1024x64 r s).trans
      (Finset.sum_congr rfl fun s' _ => expV_apply P x0 x2 x3 x4 x5 h2 h3 h4 h5 r s')))

end Tile

/-! ## The selected states -/

section Selected

variable (P : Params) (x0 : Vec Ideal S1024x512 .f32) (x2 : Vec Ideal S512x128 .f32) (x3 : Vec Ideal S128 .f32)
  (x4 : Vec Ideal S128x64 .f32) (x5 : Vec Ideal S64 .f32) (x1 : Vec Ideal S64x512 .f32)

/-- Row `r` of the selected states the body computes is the selected state of row `r`. -/
theorem selected_apply (h2 : ∀ k j, x2 (ix2 k j) = P.W1 k j) (h3 : ∀ j, x3 (ix1 j) = P.c1 j)
    (h4 : ∀ j s, x4 (ix2 j s) = P.W2 j s) (h5 : ∀ s, x5 (ix1 s) = P.c2 s) (h1 : ∀ s d, x1 (ix2 s d) = P.R s d)
    (r : Fin 1024) (d : Fin 512) :
    k0_pay6 (F := Ideal) x0 x2 x3 x4 x5 x1 (ix2 r d) = chosen P (fun k => x0 (ix2 r k)) d :=
  (PlainProduct.matmul_of_plain dot_S1024x64_S64x512_S1024x512_1_0_0_1_n_n rfl none (k0_pay5 (F := Ideal) x0 x2 x3 x4 x5)
      (truncf .bf16 x1 bitsLt_bf16_f32 : FVec Ideal S64x512 .bf16) r d).trans
    (Finset.sum_congr rfl fun s _ => congrArg₂ (· * ·) (weights_apply P x0 x2 x3 x4 x5 h2 h3 h4 h5 r s) (h1 s d))

end Selected

/-! ## The product that contracts the rows of both operands -/

/-- The left operand's column coordinate is the result's row coordinate. -/
theorem lhs_outer_1 (i : S64x512.Idx) (q : dot_S1024x64_S1024x512_S64x512_0_0_1_1_n_n.contr.Idx) :
    (dot_S1024x64_S1024x512_S64x512_0_0_1_1_n_n.lhsIdx i q 1).val = (i 0).val := by
  unfold DotDims.lhsIdx
  rw [dif_neg (show ¬(1 : Fin S1024x64.rank) ∈ dot_S1024x64_S1024x512_S64x512_0_0_1_1_n_n.lhsBatch by decide),
    dif_pos (show (1 : Fin S1024x64.rank) ∈ dot_S1024x64_S1024x512_S64x512_0_0_1_1_n_n.lhsNonContracting by decide)]
  rfl

/-- The right operand's column coordinate is the result's column coordinate. -/
theorem rhs_outer_1 (i : S64x512.Idx) (q : dot_S1024x64_S1024x512_S64x512_0_0_1_1_n_n.contr.Idx) :
    (dot_S1024x64_S1024x512_S64x512_0_0_1_1_n_n.rhsIdx i q 1).val = (i 1).val := by
  unfold DotDims.rhsIdx
  rw [dif_neg (show ¬(1 : Fin S1024x512.rank) ∈ dot_S1024x64_S1024x512_S64x512_0_0_1_1_n_n.rhsBatch by decide),
    dif_pos (show (1 : Fin S1024x512.rank) ∈ dot_S1024x64_S1024x512_S64x512_0_0_1_1_n_n.rhsNonContracting by decide)]
  rfl

/-- A product into the zero block that contracts axis 0 of both operands, read at `(s, d)`: the sum over the 1024 rows
    `r` of the left operand at `(r, s)` times the right operand at `(r, d)`. -/
theorem outer_apply {φ₁ φ₂ : FTy} (A : FVec Ideal S1024x64 φ₁) (B : FVec Ideal S1024x512 φ₂) (s : Fin 64) (d : Fin 512) :
    matmul dot_S1024x64_S1024x512_S64x512_0_0_1_1_n_n none A B (constant (F := Ideal) S64x512 .f32 0x00000000#32) (ix2 s d)
      = ∑ r : Fin 1024, A (ix2 r s) * B (ix2 r d) := by
  refine (Ideal.matmul_constant_zero_apply dot_S1024x64_S1024x512_S64x512_0_0_1_1_n_n none A B (ix2 s d)).trans ?_
  rw [← Equiv.sum_comp (contrEquiv1 dot_S1024x64_S1024x512_S64x512_0_0_1_1_n_n 1024 rfl rfl).symm]
  refine Finset.sum_congr rfl fun r _ => ?_
  have hk := contrEquiv1_symm_val dot_S1024x64_S1024x512_S64x512_0_0_1_1_n_n 1024 rfl rfl r
  have el : dot_S1024x64_S1024x512_S64x512_0_0_1_1_n_n.lhsIdx (ix2 s d)
      ((contrEquiv1 dot_S1024x64_S1024x512_S64x512_0_0_1_1_n_n 1024 rfl rfl).symm r) = ix2 r s := funext fun a => Fin.ext (by
    match a with
    | ⟨0, _⟩ => exact (dot_S1024x64_S1024x512_S64x512_0_0_1_1_n_n.lhsIdx_val_of_single rfl _ _).trans hk
    | ⟨1, _⟩ => exact lhs_outer_1 _ _)
  have er : dot_S1024x64_S1024x512_S64x512_0_0_1_1_n_n.rhsIdx (ix2 s d)
      ((contrEquiv1 dot_S1024x64_S1024x512_S64x512_0_0_1_1_n_n 1024 rfl rfl).symm r) = ix2 r d := funext fun a => Fin.ext (by
    match a with
    | ⟨0, _⟩ => exact (dot_S1024x64_S1024x512_S64x512_0_0_1_1_n_n.rhsIdx_val_of_single rfl _ _).trans hk
    | ⟨1, _⟩ => exact rhs_outer_1 _ _)
  rw [el, er]

/-! ## The update direction and the accumulator -/

/-- The tile's update directions, from the tile, its selected states and the three update parameters. -/
def pushedV (v4 : FVec Ideal S1024x512 .bf16) (v36 : FVec Ideal S1024x512 .f32) (x6 x7 : Vec Ideal S512x512 .f32)
    (x8 : Vec Ideal S512 .f32) : FVec Ideal S1024x512 .f32 :=
  tanh (addf
    (addf
      (matmul dot_S1024x512_S512x512_S1024x512_1_0_0_1_n_n none v4
        (truncf .bf16 (shapeCast S512x512 x6 shapeCasts_S512x512_S512x512) bitsLt_bf16_f32 : FVec Ideal S512x512 .bf16)
        (constant (F := Ideal) S1024x512 .f32 0x00000000#32))
      (matmul dot_S1024x512_S512x512_S1024x512_1_0_0_1_n_n none (truncf .bf16 v36 bitsLt_bf16_f32 : FVec Ideal S1024x512 .bf16)
        (truncf .bf16 (shapeCast S512x512 x7 shapeCasts_S512x512_S512x512) bitsLt_bf16_f32 : FVec Ideal S512x512 .bf16)
        (constant (F := Ideal) S1024x512 .f32 0x00000000#32)))
    (broadcastTo S1024x512 (shapeCast S1x512 x8 shapeCasts_S512_S1x512) broadcasts_S1x512_S1024x512))

/-- The accumulator's new value is the old one plus the product of the weights, transposed, with the update directions. -/
theorem pay1_eq (v4 : FVec Ideal S1024x512 .bf16) (v33 : FVec Ideal S1024x64 .bf16) (v36 : FVec Ideal S1024x512 .f32)
    (x6 x7 : Vec Ideal S512x512 .f32) (x8 : Vec Ideal S512 .f32) (acc : Vec Ideal S64x512 .f32) :
    k0_pay1 (F := Ideal) v4 v33 v36 x6 x7 x8 acc
      = shapeCast S64x512 (addf acc (matmul dot_S1024x64_S1024x512_S64x512_0_0_1_1_n_n none v33
          (truncf .bf16 (pushedV v4 v36 x6 x7 x8) bitsLt_bf16_f32 : FVec Ideal S1024x512 .bf16)
          (constant (F := Ideal) S64x512 .f32 0x00000000#32))) shapeCasts_S64x512_S64x512 := rfl

section Accumulate

variable (P : Params) (x0 : Vec Ideal S1024x512 .f32) (x2 : Vec Ideal S512x128 .f32) (x3 : Vec Ideal S128 .f32)
  (x4 : Vec Ideal S128x64 .f32) (x5 : Vec Ideal S64 .f32) (x1 : Vec Ideal S64x512 .f32)
  (x6 x7 : Vec Ideal S512x512 .f32) (x8 : Vec Ideal S512 .f32)

/-- Row `r` of the tile's update directions is the update direction of row `r`. -/
theorem pushedV_apply (h2 : ∀ k j, x2 (ix2 k j) = P.W1 k j) (h3 : ∀ j, x3 (ix1 j) = P.c1 j)
    (h4 : ∀ j s, x4 (ix2 j s) = P.W2 j s) (h5 : ∀ s, x5 (ix1 s) = P.c2 s) (h1 : ∀ s d, x1 (ix2 s d) = P.R s d)
    (h6 : ∀ k d, x6 (ix2 k d) = P.WT k d) (h7 : ∀ k d, x7 (ix2 k d) = P.WB k d) (h8 : ∀ d, x8 (ix1 d) = P.cu d)
    (r : Fin 1024) (d : Fin 512) :
    pushedV (k0_pay4 (F := Ideal) x0) (k0_pay6 (F := Ideal) x0 x2 x3 x4 x5 x1) x6 x7 x8 (ix2 r d)
      = pushed P (fun k => x0 (ix2 r k)) d := by
  have eT := (PlainProduct.matmul_of_plain dot_S1024x512_S512x512_S1024x512_1_0_0_1_n_n rfl none (k0_pay4 (F := Ideal) x0)
      (truncf .bf16 (shapeCast S512x512 x6 shapeCasts_S512x512_S512x512) bitsLt_bf16_f32 : FVec Ideal S512x512 .bf16) r d).trans
    (Finset.sum_congr rfl fun k _ => congrArg (x0 (ix2 r k) * ·)
      ((congrFun (shapeCast_self x6 shapeCasts_S512x512_S512x512) (ix2 k d)).trans (h6 k d)))
  have eB := (PlainProduct.matmul_of_plain dot_S1024x512_S512x512_S1024x512_1_0_0_1_n_n rfl none
      (truncf .bf16 (k0_pay6 (F := Ideal) x0 x2 x3 x4 x5 x1) bitsLt_bf16_f32 : FVec Ideal S1024x512 .bf16)
      (truncf .bf16 (shapeCast S512x512 x7 shapeCasts_S512x512_S512x512) bitsLt_bf16_f32 : FVec Ideal S512x512 .bf16) r d).trans
    (Finset.sum_congr rfl fun k _ => congrArg₂ (· * ·) (selected_apply P x0 x2 x3 x4 x5 x1 h2 h3 h4 h5 h1 r k)
      ((congrFun (shapeCast_self x7 shapeCasts_S512x512_S512x512) (ix2 k d)).trans (h7 k d)))
  have eC := (rowCopies_apply x8 shapeCasts_S512_S1x512 broadcasts_S1x512_S1024x512 r d).trans (h8 d)
  exact congrArg Ideal.tanh (congrArg₂ (· + ·) (congrArg₂ (· + ·) eT eB) eC)

end Accumulate

/-! ## The five payloads at an index -/

theorem pay5_apply (P : Params) (x0 : Vec Ideal S1024x512 .f32) (x2 : Vec Ideal S512x128 .f32) (x3 : Vec Ideal S128 .f32)
    (x4 : Vec Ideal S128x64 .f32) (x5 : Vec Ideal S64 .f32)
    (h2 : ∀ k j, x2 (ix2 k j) = P.W1 k j) (h3 : ∀ j, x3 (ix1 j) = P.c1 j) (h4 : ∀ j s, x4 (ix2 j s) = P.W2 j s)
    (h5 : ∀ s, x5 (ix1 s) = P.c2 s) (r : Fin 1024) (s : Fin 64) :
    k0_pay5 (F := Ideal) x0 x2 x3 x4 x5 (ix2 r s) = weight P (fun k => x0 (ix2 r k)) s :=
  weights_apply P x0 x2 x3 x4 x5 h2 h3 h4 h5 r s

theorem pay6_apply (P : Params) (x0 : Vec Ideal S1024x512 .f32) (x2 : Vec Ideal S512x128 .f32) (x3 : Vec Ideal S128 .f32)
    (x4 : Vec Ideal S128x64 .f32) (x5 : Vec Ideal S64 .f32)
    (h2 : ∀ k j, x2 (ix2 k j) = P.W1 k j) (h3 : ∀ j, x3 (ix1 j) = P.c1 j) (h4 : ∀ j s, x4 (ix2 j s) = P.W2 j s)
    (h5 : ∀ s, x5 (ix1 s) = P.c2 s) (x1 : Vec Ideal S64x512 .f32) (h1 : ∀ s d, x1 (ix2 s d) = P.R s d)
    (r : Fin 1024) (d : Fin 512) :
    k0_pay6 (F := Ideal) x0 x2 x3 x4 x5 x1 (ix2 r d) = chosen P (fun k => x0 (ix2 r k)) d :=
  selected_apply P x0 x2 x3 x4 x5 x1 h2 h3 h4 h5 h1 r d

theorem pay1_apply (P : Params) (x0 : Vec Ideal S1024x512 .f32) (x2 : Vec Ideal S512x128 .f32) (x3 : Vec Ideal S128 .f32)
    (x4 : Vec Ideal S128x64 .f32) (x5 : Vec Ideal S64 .f32)
    (h2 : ∀ k j, x2 (ix2 k j) = P.W1 k j) (h3 : ∀ j, x3 (ix1 j) = P.c1 j) (h4 : ∀ j s, x4 (ix2 j s) = P.W2 j s)
    (h5 : ∀ s, x5 (ix1 s) = P.c2 s) (x1 : Vec Ideal S64x512 .f32) (h1 : ∀ s d, x1 (ix2 s d) = P.R s d)
    (x6 x7 : Vec Ideal S512x512 .f32) (x8 : Vec Ideal S512 .f32)
    (h6 : ∀ k d, x6 (ix2 k d) = P.WT k d) (h7 : ∀ k d, x7 (ix2 k d) = P.WB k d) (h8 : ∀ d, x8 (ix1 d) = P.cu d)
    (acc : Vec Ideal S64x512 .f32) (s : Fin 64) (d : Fin 512) :
    k0_pay1 (F := Ideal) (k0_pay4 x0) (k0_pay5 x0 x2 x3 x4 x5) (k0_pay6 x0 x2 x3 x4 x5 x1) x6 x7 x8 acc (ix2 s d)
      = acc (ix2 s d) + ∑ r : Fin 1024, weight P (fun k => x0 (ix2 r k)) s * pushed P (fun k => x0 (ix2 r k)) d := by
  rw [pay1_eq, shapeCast_self]
  exact congrArg (acc (ix2 s d) + ·) ((outer_apply (k0_pay5 (F := Ideal) x0 x2 x3 x4 x5)
      (truncf .bf16 (pushedV (k0_pay4 (F := Ideal) x0) (k0_pay6 (F := Ideal) x0 x2 x3 x4 x5 x1) x6 x7 x8) bitsLt_bf16_f32 :
        FVec Ideal S1024x512 .bf16) s d).trans
    (Finset.sum_congr rfl fun r _ => congrArg₂ (· * ·) (weights_apply P x0 x2 x3 x4 x5 h2 h3 h4 h5 r s)
      (pushedV_apply P x0 x2 x3 x4 x5 x1 x6 x7 x8 h2 h3 h4 h5 h1 h6 h7 h8 r d)))

theorem pay2_apply (acc : Vec Ideal S64x512 .f32) (s : Fin 64) (d : Fin 512) :
    k0_pay2 (F := Ideal) acc (ix3 (0 : Fin 1) s d) = rate * acc (ix2 s d) := by
  unfold k0_pay2
  refine (shapeCast_ab_1ab_apply _ shapeCasts_S64x512_S1x64x512 (0 : Fin 1) s d).trans ?_
  rfl

theorem pay3_apply (s : Fin 64) (d : Fin 512) : k0_pay3 (F := Ideal) (ix2 s d) = zeroW := by
  unfold k0_pay3
  rw [shapeCast_self]
  rfl

end Cert.KernelIdeal.BodyForm

end
-- ==== Proof.Device.lean ====
/-
  One device's view of the arguments: the parameters read off its seven parameter arrays and the rows of its batch
  array, as the specification names them.
-/
import proofs.«140680_j54614804136388_2_alg».proof.KernelIdeal
import proofs.«140680_j54614804136388_2_alg».proof.Proof.Spec

noncomputable section

open Idealize.ShloMosaic Idealize.ShloMosaic.TcCoe Idealize.SL.Sem

namespace Cert.KernelIdeal.Device

open Cert.KernelIdeal Cert.StateUpdate

variable (m : (ℓ : Loc nD τ sig) → Buf (Elt Ideal) ℓ)

/-- The parameters this device reads. -/
abbrev Pm (c : Dev nD) : Params :=
  paramsOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The batch rows this device reads. -/
abbrev Xm (c : Dev nD) : Fin 131072 → Fin 512 → EReal := rowsOf (m ((c : Thread nD τ).loc main_arg0))

end Cert.KernelIdeal.Device

end
-- ==== Proof.Accum.lean ====
/-
  The accumulator over one core's 64 steps, at the exact instance.

  Within a core's run the scratch accumulator is zeroed at the first step and one tile's contribution is added at
  every step.  So after the core's last step it holds, at entry `(s, d)`, zero plus the 64 tiles' contributions in
  order — `coreSum` of the specification — where tile `t`'s contribution is the sum over its 1024 rows of
  `weight(s) · pushed(d)`, the rows being rows `1024·t … 1024·t + 1023` of the batch.
-/
import proofs.«140680_j54614804136388_2_alg».proof.Proof.Pieces
import proofs.«140680_j54614804136388_2_alg».proof.Proof.Blocks
import proofs.«140680_j54614804136388_2_alg».proof.Proof.BodyForm
import proofs.«140680_j54614804136388_2_alg».proof.Proof.Spec
import proofs.«140680_j54614804136388_2_alg».proof.Proof.Device

set_option maxRecDepth 16384

noncomputable section

open scoped BigOperators
open Idealize.ShloMosaic Idealize.ShloMosaic.TcCoe Idealize.SL.Sem Idealize.ShloMosaic.ValueIdx

namespace Cert.KernelIdeal.Accum

open Cert.KernelIdeal Cert.KernelIdeal.Gen Cert.KernelIdeal.Pieces Cert.KernelIdeal.Blocks Cert.KernelIdeal.BodyForm Cert.KernelIdeal.Device Cert.StateUpdate

variable (m : (ℓ : Loc nD τ sig) → Buf (Elt Ideal) ℓ)

/-- One step's addition at point `t`, over the blocks found there. -/
abbrev stepAt (c : Dev nD) (t : Fin cfg0.N) (acc : Vec Ideal S64x512 .f32) : Vec Ideal S64x512 .f32 :=
  step (iblk m c 0 t) (iblk m c 1 t) (iblk m c 2 t) (iblk m c 3 t) (iblk m c 4 t) (iblk m c 5 t) (iblk m c 6 t) (iblk m c 7 t) (iblk m c 8 t) acc

set_option maxHeartbeats 4000000 in
/-- After a core's first step: the zero block plus that tile. -/
theorem scr_first (c : Dev nD) (t : Fin cfg0.N) (h0 : t.val % 64 = 0) :
    (outsAt0 m c t.val t.isLt).2.2 = stepAt m c t (k0_pay3 (F := Ideal)) := by
  have h1 : ¬t.val % 64 = 63 := by omega
  refine (congrArg (fun p => p.2.2) (outsAt0_A m c t h0 h1)).trans ?_
  exact sout_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)

set_option maxHeartbeats 4000000 in
/-- After any later step: what the step before left, plus that tile. -/
theorem scr_next (c : Dev nD) (t : Fin cfg0.N) (h0 : ¬t.val % 64 = 0) :
    (outsAt0 m c t.val t.isLt).2.2
      = stepAt m c t (outsAt0 m c (t.val - 1) (Nat.lt_of_le_of_lt (Nat.sub_le _ _) t.isLt)).2.2 := by
  by_cases h1 : t.val % 64 = 63
  · refine (congrArg (fun p => p.2.2) (outsAt0_C m c t h0 h1)).trans ?_
    exact sout_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2
  · refine (congrArg (fun p => p.2.2) (outsAt0_B m c t h0 h1)).trans ?_
    exact sout_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2

/-- Row `r` of tile `t` is position `r` of block `t` of the 131072 rows cut into blocks of 1024. -/
theorem rowOf_eq (t : Fin cfg0.N) (r : Fin 1024) : rowOf t r = BlockedSum.blkIdx rows_pos 1024 t.val r := by
  apply Fin.ext
  rw [BlockedSum.blkIdx_val rows_pos (nb := 128) (by norm_num) (by have := t.isLt; have hN : cfg0.N = 128 := N_0; omega) r]
  rfl

/-- One step at an entry: the accumulator's entry plus the tile's contribution to it. -/
theorem stepAt_apply (c : Dev nD) (t : Fin cfg0.N) (acc : Vec Ideal S64x512 .f32) (s : Fin 64) (d : Fin 512) :
    stepAt m c t acc (ix2 s d) = acc (ix2 s d) + tileSum (Pm m c) (Xm m c) s d t.val := by
  refine (pay1_apply (Pm m c) (iblk m c 0 t) (iblk m c 2 t) (iblk m c 3 t) (iblk m c 4 t) (iblk m c 5 t)
    (fun k j => by rw [iblk2_eq, V_main_arg2]; rfl) (fun j => by rw [iblk3_eq, V_main_arg3]; rfl)
    (fun j s => by rw [iblk4_eq, V_main_arg4]; rfl) (fun s => by rw [iblk5_eq, V_main_arg5]; rfl)
    (iblk m c 1 t) (fun s d => by rw [iblk1_eq, V_main_arg1]; rfl)
    (iblk m c 6 t) (iblk m c 7 t) (iblk m c 8 t)
    (fun k d => by rw [iblk6_eq, V_top_apply]; rfl) (fun k d => by rw [iblk7_eq, V_bot_apply]; rfl)
    (fun d => by rw [iblk8_eq, V_main_arg7]; rfl) acc s d).trans ?_
  refine congrArg (fun z => acc (ix2 s d) + z) ?_
  unfold tileSum BlockedSum.blockSum
  refine Finset.sum_congr rfl fun r _ => ?_
  have hrow : (fun k => (iblk m c 0 t : Vec Ideal S1024x512 .f32) (ix2 r k)) = Xm m c (BlockedSum.blkIdx rows_pos 1024 t.val r) := by
    funext k
    rw [iblk0_apply, rowOf_eq]
    rfl
  rw [hrow]
  rfl

/-- THE ACCUMULATOR after a core's last step: entry `(s, d)` is the core's total. -/
theorem scr_last (c : Dev nD) (t : Fin cfg0.N) (h63 : t.val % 64 = 63) (s : Fin 64) (d : Fin 512) :
    (outsAt0 m c t.val t.isLt).2.2 (ix2 s d) = coreSum (Pm m c) (Xm m c) s d (t.val / 64) := by
  have hN : cfg0.N = 128 := N_0
  have hb : 64 * (t.val / 64) + t.val % 64 < cfg0.N := by rw [Nat.div_add_mod]; exact t.isLt
  have hfold := Pipeline.eq_accAt_of_mod (N := cfg0.N) (fun n h => (outsAt0 m c n h).2.2) 64
    (fun n h => stepAt m c ⟨n, h⟩ (k0_pay3 (F := Ideal))) (fun n h acc => stepAt m c ⟨n, h⟩ acc)
    (fun n h e => scr_first m c ⟨n, h⟩ e) (fun n h e => scr_next m c ⟨n + 1, h⟩ e) (by norm_num) t.val t.isLt hb
  rw [hfold]
  have hsum := Pipeline.accAt_add_apply (N := cfg0.N) (ι := S64x512.Idx) (β := EReal)
    (fun n h => stepAt m c ⟨n, h⟩ (k0_pay3 (F := Ideal))) (fun n h acc => stepAt m c ⟨n, h⟩ acc)
    (fun i => (k0_pay3 (F := Ideal) : Vec Ideal S64x512 .f32) i) (fun n i => tileSum (Pm m c) (Xm m c) (i 0) (i 1) n)
    (64 * (t.val / 64)) 63
    (fun h i => by rw [eq_ix2 i]; exact stepAt_apply m c ⟨_, h⟩ (k0_pay3 (F := Ideal)) (i 0) (i 1))
    (fun n h acc i _ _ => by rw [eq_ix2 i]; exact stepAt_apply m c ⟨n, h⟩ acc (i 0) (i 1))
    (t.val % 64) (by omega) hb (ix2 s d)
  rw [hsum, h63]
  unfold coreSum
  rw [pay3_apply]

end Cert.KernelIdeal.Accum

end
-- ==== Proof.States.lean ====
/-
  The second output of the kernel and what the host makes of it.

  The kernel's second output has one slot per core.  A core writes its slot once, at its last step: the rate times
  its accumulated total.  So after the run slot `q`, entry `(s, d)`, is `rate · coreSum q`.  The host then takes the
  two slots apart, drops their unit axis and adds them, one after the other, to the reference states:
  `(R + rate · coreSum 0) + rate · coreSum 1` — which is the specification's updated states.
-/
import proofs.«140680_j54614804136388_2_alg».proof.Proof.Accum

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.States

open Cert.KernelIdeal Cert.KernelIdeal.Gen Cert.KernelIdeal.Pieces Cert.KernelIdeal.Blocks Cert.KernelIdeal.BodyForm
open Cert.KernelIdeal.Device Cert.KernelIdeal.Accum Cert.StateUpdate

variable (m : (ℓ : Loc nD τ sig) → Buf (Elt Ideal) ℓ)

/-- The second output after the run: slot `q`, entry `(s, d)`, is the rate times core `q`'s total. -/
abbrev slots (c : Dev nD) : S2x64x512.Idx → EReal :=
  fun i => rate * coreSum (Pm m c) (Xm m c) (i 1) (i 2) (i 0).val

/-- The slot a step writes to is its core's: step `t` belongs to core `t / 64`. -/
theorem idx10 : ∀ t : Fin cfg0.N, win0_10.index t (0 : Fin 3) = t.val / 64 ∧ win0_10.index t (1 : Fin 3) = 0
    ∧ win0_10.index t (2 : Fin 3) = 0 := (by decide +kernel : ∀ t : Fin grid0.N, _)

/-- At a core's last step the slot's block is the body's scaling of the accumulator just stored. -/
theorem block10 (c : Dev nD) (t : Fin cfg0.N) (h63 : t.val % 64 = 63) :
    (outsAt0 m c t.val t.isLt).2.1 = k0_pay2 (outsAt0 m c t.val t.isLt).2.2 := by
  have h0 : ¬t.val % 64 = 0 := by omega
  rw [outsAt0_C m c t h0 h63]
  dsimp only
  exact (out10_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h63) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2).trans
    (congrArg k0_pay2 (sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h63) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2).symm)

/-- Entry `(0, s, d)` of that block: the rate times the core's total. -/
theorem block10_apply (c : Dev nD) (t : Fin cfg0.N) (h63 : t.val % 64 = 63) (s : Fin 64) (d : Fin 512) :
    ((outsAt0 m c t.val t.isLt).2.1 : Vec Ideal S1x64x512 .f32) (ix3 (0 : Fin 1) s d)
      = rate * coreSum (Pm m c) (Xm m c) s d (t.val / 64) := by
  rw [block10 m c t h63, pay2_apply, scr_last m c t h63 s d]

/-- An index of the slots array lies in step `t`'s block iff each coordinate is in the block's range. -/
theorem mem_blk10 (t : Fin cfg0.N) (i : S2x64x512.Idx) :
    i ∈ ((cfg0.win 10).blk t).view.set ↔ ∀ a : Fin 3, win0_10.index t a * S1x64x512.size a ≤ (i a).val
      ∧ (i a).val < win0_10.index t a * S1x64x512.size a + S1x64x512.size a := by
  show i ∈ ((View.whole main_v2_1).slice (win0_10.rect t)).set ↔ _
  rw [View.set_slice_whole, Rect.mem_set_unit]
  exact Iff.rfl

/-- Entry `(0, s, d)` of step `t`'s block lies at `(t / 64, s, d)` of the slots array. -/
theorem emb10 (t : Fin cfg0.N) (s : Fin 64) (d : Fin 512) :
    ((cfg0.win 10).blk t).view.emb (ix3 (0 : Fin 1) s d)
      = (ix3 (⟨t.val / 64, by have := t.isLt; have hN : cfg0.N = 128 := N_0; omega⟩ : Fin 2) s d : S2x64x512.Idx) := by
  obtain ⟨e0, e1, e2⟩ := idx10 t
  funext ax
  apply Fin.ext
  match ax with
  | ⟨0, _⟩ => show win0_10.index t (0 : Fin 3) * 1 + 1 * 0 = t.val / 64; omega
  | ⟨1, _⟩ => show win0_10.index t (1 : Fin 3) * 64 + 1 * s.val = s.val; omega
  | ⟨2, _⟩ => show win0_10.index t (2 : Fin 3) * 512 + 1 * d.val = d.val; omega

/-- What a core's last step leaves in its slot's block, entry by entry, is `slots` read through the block's place. -/
theorem flushed_at10 (c : Dev nD) (t : Fin cfg0.N) (h63 : t.val % 64 = 63) (y : S1x64x512.Idx) :
    (outsAt0 m c t.val t.isLt).2.1 y = slots m c (((cfg0.win 10).blk t).view.emb y) := by
  obtain ⟨u, s, d, rfl⟩ : ∃ (u : Fin 1) (s : Fin 64) (d : Fin 512), y = ix3 u s d := ⟨y 0, y 1, y 2, eq_ix3 y⟩
  obtain rfl : u = 0 := Subsingleton.elim u 0
  exact (block10_apply m c t h63 s d).trans (congrArg (slots m c) (emb10 t s d)).symm

/-- What a core's last step writes back is its block of `slots`. -/
theorem flushed10_eq (c : Dev nD) (t : Fin cfg0.N) (hf : (cfg0.win 10).flush t = true) :
    (dats m 0 c).flushed 10 t = ((cfg0.win 10).blk t).view.read (Elt Ideal) (slots m c) := by
  have h63 : t.val % 64 = 63 := (flush0_10 t).mp hf
  show (cfg0.win 10).cut (grid0.coords t) ((dats m 0 c).after 10 t) = _
  rw [after0_10]
  funext y
  rw [View.read_apply]
  exact flushed_at10 m c t h63 y

/-- Every slot is written by its core's last step. -/
theorem cover10 (i : S2x64x512.Idx) :
    ∃ t : Fin cfg0.N, (cfg0.win 10).flush t = true ∧ i ∈ ((cfg0.win 10).blk t).view.set := by
  have hN : cfg0.N = 128 := N_0
  have hi0 : (i 0).val < 2 := (i 0).isLt
  have hi1 : (i 1).val < 64 := (i 1).isLt
  have hi2 : (i 2).val < 512 := (i 2).isLt
  let t : Fin cfg0.N := ⟨64 * (i 0).val + 63, by omega⟩
  have ht : t.val = 64 * (i 0).val + 63 := rfl
  obtain ⟨e0, e1, e2⟩ := idx10 t
  refine ⟨t, (flush0_10 t).mpr (by rw [ht]; omega), ?_⟩
  rw [mem_blk10]
  intro a
  match a with
  | ⟨0, _⟩ => show win0_10.index t (0 : Fin 3) * 1 ≤ (i 0).val ∧ (i 0).val < win0_10.index t (0 : Fin 3) * 1 + 1; omega
  | ⟨1, _⟩ => show win0_10.index t (1 : Fin 3) * 64 ≤ (i 1).val ∧ (i 1).val < win0_10.index t (1 : Fin 3) * 64 + 64; omega
  | ⟨2, _⟩ => show win0_10.index t (2 : Fin 3) * 512 ≤ (i 2).val ∧ (i 2).val < win0_10.index t (2 : Fin 3) * 512 + 512; omega

/-- THE SLOTS ARRAY after the run. -/
theorem final10 (c : Dev nD) : (dats m 0 c).arrAt 10 cfg0.N = slots m c :=
  (dats m 0 c).arrAt_eq_of_cover 10 (slots m c) (flushed10_eq m c) cover10

end Cert.KernelIdeal.States

end
-- ==== Proof.SelArray.lean ====
/-
  The first output's array after the kernel's run: every batch row's selected state.

  The grid has 128 steps and step `t` works on tile `t` of the batch, rows `1024·t … 1024·t + 1023`.  In each of the
  body's three control cases the block of the first output that the step leaves is the tile's selected states, and
  every step writes its block back, to rows `1024·t … 1024·t + 1023` of the array.  Entry `(r, d)` of the block is
  entry `d` of the selected state of the batch's row `1024·t + r`, so what step `t` writes back is the array of all
  rows' selected states read through the block's place; and every index `(b, d)` of the array lies in the block of
  step `b / 1024`.  Hence the array ends holding every row's selected state.
-/
import proofs.«140680_j54614804136388_2_alg».proof.Proof.Pieces
import proofs.«140680_j54614804136388_2_alg».proof.Proof.Blocks
import proofs.«140680_j54614804136388_2_alg».proof.Proof.BodyForm
import proofs.«140680_j54614804136388_2_alg».proof.Proof.Device
import proofs.«140680_j54614804136388_2_alg».proof.Proof.Spec

set_option maxRecDepth 16384

noncomputable section

open scoped BigOperators
open Idealize.ShloMosaic Idealize.ShloMosaic.TcCoe Idealize.SL.Sem Idealize.ShloMosaic.ValueIdx

namespace Cert.KernelIdeal.SelArray

open Cert.KernelIdeal Cert.KernelIdeal.Gen Cert.KernelIdeal.Pieces Cert.KernelIdeal.Blocks Cert.KernelIdeal.BodyForm Cert.StateUpdate

variable (m : (ℓ : Loc nD τ sig) → Buf (Elt Ideal) ℓ)

/-! ## What every step leaves in the first output's block -/

/-- After any step the first output's block is the selected states of the step's tile, as the body's term over the
    blocks found there: so in each of the three control cases. -/
theorem block9 (c : Dev nD) (t : Fin cfg0.N) :
    (outsAt0 m c t.val t.isLt).1
      = k0_pay6 (F := Ideal) (iblk m c 0 t) (iblk m c 2 t) (iblk m c 3 t) (iblk m c 4 t) (iblk m c 5 t) (iblk m c 1 t) := by
  by_cases h0 : t.val % 64 = 0
  · have h1 : ¬t.val % 64 = 63 := by omega
    rw [outsAt0_A m c t h0 h1]
    dsimp only
    exact out9_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)
  · by_cases h1 : t.val % 64 = 63
    · rw [outsAt0_C m c t h0 h1]
      dsimp only
      exact out9_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) _
    · rw [outsAt0_B m c t h0 h1]
      dsimp only
      exact out9_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) _
/-- Entry `(r, d)` of that block is entry `d` of the selected state of the batch's row `1024·t + r`. -/
theorem block9_apply (c : Dev nD) (t : Fin cfg0.N) (r : Fin 1024) (d : Fin 512) :
    (outsAt0 m c t.val t.isLt).1 (ix2 r d) = chosen (Device.Pm m c) (Device.Xm m c (rowOf t r)) d := by
  rw [block9]
  refine (pay6_apply (Device.Pm m c) (iblk m c 0 t) (iblk m c 2 t) (iblk m c 3 t) (iblk m c 4 t) (iblk m c 5 t)
    (fun k j => by rw [iblk2_eq, V_main_arg2]; rfl) (fun j => by rw [iblk3_eq, V_main_arg3]; rfl)
    (fun j s => by rw [iblk4_eq, V_main_arg4]; rfl) (fun s => by rw [iblk5_eq, V_main_arg5]; rfl)
    (iblk m c 1 t) (fun s d => by rw [iblk1_eq, V_main_arg1]; rfl) r d).trans ?_
  have hrow : (fun k => (iblk m c 0 t : Vec Ideal S1024x512 .f32) (ix2 r k)) = Device.Xm m c (rowOf t r) := by
    funext k
    rw [iblk0_apply]
    rfl
  rw [hrow]

/-! ## From the blocks to the array -/

/-- Step `t` writes the first output's block `(t, 0)`: decided once over the 128 steps. -/
theorem idx9 : ∀ t : Fin cfg0.N, win0_9.index t 0 = t.val ∧ win0_9.index t 1 = 0 := (by decide +kernel : ∀ t : Fin grid0.N, _)

/-- Entry `(r, d)` of step `t`'s block lies at `(1024·t + r, d)` of the array. -/
theorem emb9 (t : Fin cfg0.N) (r : Fin 1024) (d : Fin 512) :
    ((cfg0.win 9).blk t).view.emb (ix2 r d) = (ix2 (rowOf t r) d : S131072x512.Idx) := by
  funext ax
  apply Fin.ext
  match ax with
  | ⟨0, _⟩ => show win0_9.index t 0 * 1024 + 1 * r.val = 1024 * t.val + r.val; rw [(idx9 t).1]; omega
  | ⟨1, _⟩ => show win0_9.index t 1 * 512 + 1 * d.val = d.val; rw [(idx9 t).2]; omega

/-- What step `t` writes back, entry by entry, is the array of selected states read through the block's place. -/
theorem flushed_at (c : Dev nD) (t : Fin cfg0.N) (y : S1024x512.Idx) :
    (outsAt0 m c t.val t.isLt).1 y
      = selectedArr (Device.Pm m c) (m ((c : Thread nD τ).loc main_arg0)) (((cfg0.win 9).blk t).view.emb y) := by
  obtain ⟨r, d, rfl⟩ : ∃ (r : Fin 1024) (d : Fin 512), y = ix2 r d := ⟨y 0, y 1, eq_ix2 y⟩
  exact (block9_apply m c t r d).trans
    (congrArg (selectedArr (Device.Pm m c) (m ((c : Thread nD τ).loc main_arg0))) (emb9 t r d)).symm

/-- WHAT STEP `t` WRITES BACK is block `t` of the array of selected states. -/
theorem flushed_eq (c : Dev nD) (t : Fin cfg0.N) (hf : (cfg0.win 9).flush t = true) :
    (dats m 0 c).flushed 9 t
      = ((cfg0.win 9).blk t).view.read (Elt Ideal) (selectedArr (Device.Pm m c) (m ((c : Thread nD τ).loc main_arg0))) := by
  show (cfg0.win 9).cut (grid0.coords t) ((dats m 0 c).after 9 t) = _
  rw [after0_9]
  funext y
  rw [View.read_apply]
  exact flushed_at m c t y

/-- An index of the array is in step `t`'s block iff each coordinate is in the block's range on its axis. -/
theorem mem_blk9 (t : Fin cfg0.N) (i : S131072x512.Idx) :
    i ∈ ((cfg0.win 9).blk t).view.set
      ↔ ∀ a : Fin 2, win0_9.index t a * S1024x512.size a ≤ (i a).val ∧ (i a).val < win0_9.index t a * S1024x512.size a + S1024x512.size a := by
  show i ∈ ((View.whole main_v2_0).slice (win0_9.rect t)).set ↔ _
  rw [View.set_slice_whole, Rect.mem_set_unit]
  exact Iff.rfl

/-- Every index of the array is in the block of the step that takes its row's tile. -/
theorem cover9 (i : S131072x512.Idx) : ∃ t : Fin cfg0.N, (cfg0.win 9).flush t = true ∧ i ∈ ((cfg0.win 9).blk t).view.set := by
  have hN : cfg0.N = 128 := N_0
  have hi0 : (i 0).val < 131072 := (i 0).isLt
  have hi1 : (i 1).val < 512 := (i 1).isLt
  refine ⟨⟨(i 0).val / 1024, by omega⟩, flush0_9 _, ?_⟩
  rw [mem_blk9]
  intro a
  match a with
  | ⟨0, _⟩ =>
    show win0_9.index ⟨(i 0).val / 1024, _⟩ 0 * 1024 ≤ (i 0).val ∧ (i 0).val < win0_9.index ⟨(i 0).val / 1024, _⟩ 0 * 1024 + 1024
    rw [(idx9 _).1]
    show (i 0).val / 1024 * 1024 ≤ (i 0).val ∧ (i 0).val < (i 0).val / 1024 * 1024 + 1024
    omega
  | ⟨1, _⟩ =>
    show win0_9.index ⟨(i 0).val / 1024, _⟩ 1 * 512 ≤ (i 1).val ∧ (i 1).val < win0_9.index ⟨(i 0).val / 1024, _⟩ 1 * 512 + 512
    rw [(idx9 _).2]
    omega

/-- THE FIRST OUTPUT'S ARRAY after the run: every batch row's selected state. -/
theorem final9 (m : (ℓ : Loc nD τ sig) → Buf (Elt Ideal) ℓ) (c : Dev nD) :
    (dats m 0 c).arrAt 9 cfg0.N = selectedArr (Device.Pm m c) (m ((c : Thread nD τ).loc main_arg0)) :=
  (dats m 0 c).arrAt_eq_of_cover 9 _ (flushed_eq m c) cover9

end Cert.KernelIdeal.SelArray

end
-- ==== Proof.Tail.lean ====
/-
  What the host makes of the kernel's second output, for any float instance and any contents `G` of the slots array:
  the second result is the reference states plus slot 0 plus slot 1, each slot cut out of the array and its unit
  axis dropped; and, at an entry, `(R + G(0, s, d)) + G(1, s, d)`.
-/
import proofs.«140680_j54614804136388_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Tail

open Cert.KernelIdeal Cert.KernelIdeal.Gen Idealize.ShloMosaic.StableHlo

variable {F : FTy → Type} [FloatOps F]
variable (m : (ℓ : Loc nD τ sig) → Buf (Elt F) ℓ)

/-- The host's lines after the kernel, as one term of the reference states and the slots array. -/
def tailTerm (R : Vec F S64x512 .f32) (G : Vec F S2x64x512 .f32) : Vec F S64x512 .f32 :=
  addf (addf R
      (shapeCast S64x512 (extractStridedSlice S1x64x512 ![0, 0, 0] G slices_S2x64x512_S1x64x512_0_0_0) shapeCasts_S1x64x512_S64x512))
    (shapeCast S64x512 (extractStridedSlice S1x64x512 ![1, 0, 0] G slices_S2x64x512_S1x64x512_1_0_0) shapeCasts_S1x64x512_S64x512)

/-- The second result after the whole program: the host's term of the reference states as launched and of the slots
    array as the kernel left it. -/
theorem tail_eq (c : Dev nD) (G : Vec F S2x64x512 .f32) (hG : (dats m 0 c).arrAt 10 cfg0.N = G) :
    Pipeline.afterTail₀ cfgs (dats m) 0 (V0 m) [hostOps1] c main_v8
      = tailTerm (m ((c : Thread nD τ).loc main_arg1)) G := by
  have w10 : Pipeline.withArrays (cfgs 0).spec c (V0 m c) (fun w => (dats m 0 c).arrAt w (cfgs 0).N) (Proc.devRef .tc main_v2_1) = G :=
    (Pipeline.withArrays_arr spec0 launch0.win.arr_inj c _ _ 10).trans hG
  have w1 : Pipeline.withArrays (cfgs 0).spec c (V0 m c) (fun w => (dats m 0 c).arrAt w (cfgs 0).N) (Proc.devRef .tc main_arg1)
      = m ((c : Thread nD τ).loc main_arg1) :=
    (Pipeline.withArrays_arr spec0 launch0.win.arr_inj c _ _ 1).trans
      (((dats m 0 c).arrAt_in 1 rfl _).trans ((A_eq m c 1).trans (V_main_arg1 m c)))
  unfold Pipeline.afterTail₀
  show StableHlo.after hostOps1 _ (Proc.devRef .tc main_v8) = _
  after_results
  rw [w10, w1]
  unfold tailTerm
  funext i
  refine congrArg₂ FloatOps.addf (congrArg₂ FloatOps.addf rfl ?_) ?_
  · dsimp only
    rfl
  · dsimp only
    rfl

/-- A slot with its unit axis dropped, at an entry. -/
theorem slot_apply (G : Vec F S2x64x512 .f32) (q : Fin 2) (off : Fin 3 → Nat) (hoff : off = ![q.val, 0, 0])
    (h : S2x64x512.Slices off S1x64x512) (s : Fin 64) (d : Fin 512) :
    shapeCast S64x512 (extractStridedSlice S1x64x512 off G h) shapeCasts_S1x64x512_S64x512 (ix2 s d) = G (ix3 q s d) := by
  subst hoff
  refine (shapeCast_1ab_ab_apply _ shapeCasts_S1x64x512_S64x512 s d).trans ?_
  refine extractStridedSlice_apply _ _ _ _ _ fun ax => ?_
  match ax with
  | ⟨0, _⟩ => show q.val = q.val + 0; omega
  | ⟨1, _⟩ => show s.val = 0 + s.val; omega
  | ⟨2, _⟩ => show d.val = 0 + d.val; omega

/-- The host's term at an entry. -/
theorem tailTerm_apply (R : Vec F S64x512 .f32) (G : Vec F S2x64x512 .f32) (s : Fin 64) (d : Fin 512) :
    tailTerm R G (ix2 s d)
      = FloatOps.addf (FloatOps.addf (R (ix2 s d)) (G (ix3 (0 : Fin 2) s d))) (G (ix3 (1 : Fin 2) s d)) := by
  unfold tailTerm
  show FloatOps.addf (FloatOps.addf (R (ix2 s d)) (shapeCast S64x512 _ _ (ix2 s d))) (shapeCast S64x512 _ _ (ix2 s d)) = _
  exact congrArg₂ FloatOps.addf
    (congrArg (FloatOps.addf (R (ix2 s d))) (slot_apply G (0 : Fin 2) ![0, 0, 0] rfl slices_S2x64x512_S1x64x512_0_0_0 s d))
    (slot_apply G (1 : Fin 2) ![1, 0, 0] rfl slices_S2x64x512_S1x64x512_1_0_0 s d)

end Cert.KernelIdeal.Tail

end
-- ==== Proof.KRun.lean ====
/-
  The idealized kernel's run, read: every weakly fair execution of the whole program terminates with the first result
  at every row's selected state, the second at the updated reference states, and the arguments as they were.

  The first result is the kernel's first output (each step writes its tile's block).  The second is the host's sum
  of the reference states and the two cores' scaled totals, which is the specification's single scaled sum over the
  whole batch because the tiles partition the rows and scaling by the rate distributes over the two totals.
-/
import proofs.«140680_j54614804136388_2_alg».proof.Proof.States
import proofs.«140680_j54614804136388_2_alg».proof.Proof.SelArray
import proofs.«140680_j54614804136388_2_alg».proof.Proof.Tail

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KRun

open Cert.KernelIdeal Cert.KernelIdeal.Gen Cert.KernelIdeal.Device Cert.KernelIdeal.States Cert.KernelIdeal.Tail Cert.StateUpdate

variable (m : (ℓ : Loc nD τ sig) → Buf (Elt Ideal) ℓ) (ρ : Dev nD → PrngReg)

/-- The host's term of the reference states and the two cores' slots is the updated states. -/
theorem tail_is_newStates (c : Dev nD) :
    tailTerm (F := Ideal) (m ((c : Thread nD τ).loc main_arg1)) (slots m c)
      = newStatesArr (Pm m c) (m ((c : Thread nD τ).loc main_arg0)) := by
  funext i
  obtain ⟨s, d, rfl⟩ : ∃ (s : Fin 64) (d : Fin 512), i = ix2 s d := ⟨i 0, i 1, eq_ix2 i⟩
  rw [tailTerm_apply]
  exact newStatesByCores_eq (Pm m c) (Xm m c) s d

/-- THE RUN of the idealized kernel's program. -/
theorem run : θ_run defs (onTc (τ := τ) (main (F := Ideal))) ⟨m, fun _ => 0, ρ⟩ fun r => ∀ c : Dev nD,
      r.2.mem ((c.tc : Thread nD τ).loc main_v2_0) = selectedArr (Pm m c) (m ((c.tc : Thread nD τ).loc main_arg0))
      ∧ r.2.mem ((c.tc : Thread nD τ).loc main_v8) = newStatesArr (Pm m c) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h c).1 9).trans (Cert.KernelIdeal.SelArray.final9 m c),
      ((h c).2 main_v8 (Pipeline.mem_restRefs_of main_v8 (by decide) (by decide))).trans
        ((tail_eq m c (slots m c) (final10 m c)).trans (tail_is_newStates m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c)),
      ((h c).1 8).trans (((dats m 0 c).arrAt_in 8 rfl _).trans ((A_eq m c 8).trans (V_main_arg7 m c)))⟩)
    (run_main m ρ)

end Cert.KernelIdeal.KRun

end
-- ==== Proof.RefTerms.lean ====
/-
  The reference's two results as functions of its eight argument arrays, stage by stage, in the host program's own
  operations and in its order: the hidden layer, the logits, each row's greatest logit, the exponentials, the
  softmax weights, the selected states (first result), the update directions, and the moved reference states
  (second result).  Generic in the float instance; each stage is one or two of the program's lines.
-/
import proofs.«140680_j54614804136388_2_alg».proof.Proof.Gen.ReferenceIdeal

noncomputable section

namespace Cert.ReferenceIdeal.RefValue

open Cert.ReferenceIdeal Cert.ReferenceIdeal.Gen Idealize.ShloMosaic

variable {F : FTy → Type} [FloatOps F]

/-- The hidden layer of every row: `max (X·W1 + c1) 0`. -/
def hidArr (x0 : FVec F S131072x512 .f32) (x2 : FVec F S512x128 .f32) (x3 : FVec F S128 .f32) : FVec F S131072x128 .f32 :=
  maximumf (addf (Host.dotGeneral dot_S131072x512_S512x128_S131072x128_1_0_0_1_n_n none x0 x2)
      (broadcastInDim S131072x128 ![0, 1] bcast_S1x128_S131072x128_0_1 (broadcastInDim S1x128 ![1] bcast_S128_S1x128_1 x3)))
    (broadcastInDim S131072x128 ![] bcast_S_S131072x128 (constant S_ .f32 0x00000000#32))

/-- The logits of every row: `hidden·W2 + c2`. -/
def logitArr (x0 : FVec F S131072x512 .f32) (x2 : FVec F S512x128 .f32) (x3 : FVec F S128 .f32) (x4 : FVec F S128x64 .f32)
    (x5 : FVec F S64 .f32) : FVec F S131072x64 .f32 :=
  addf (Host.dotGeneral dot_S131072x128_S128x64_S131072x64_1_0_0_1_n_n none (hidArr x0 x2 x3) x4)
    (broadcastInDim S131072x64 ![0, 1] bcast_S1x64_S131072x64_0_1 (broadcastInDim S1x64 ![1] bcast_S64_S1x64_1 x5))

/-- Each row's greatest logit: the fold of the maximum along the row from minus infinity, capped below by minus infinity. -/
def peakArr (l : FVec F S131072x64 .f32) : FVec F S131072 .f32 :=
  maximumf (broadcastInDim S131072 ![] bcast_S_S131072 (constant S_ .f32 0xFF800000#32))
    (Host.reduce FloatOps.maximumf l (constant S_ .f32 0xFF800000#32) reducesTo_S131072x64_S131072_d1 h_S_)

/-- The exponentials of the logits' distances below their row's peak. -/
def expArr (l : FVec F S131072x64 .f32) : FVec F S131072x64 .f32 :=
  Host.exp (subf l (broadcastInDim S131072x64 ![0, 1] bcast_S131072x1_S131072x64_0_1
    (broadcastInDim S131072x1 ![0] bcast_S131072_S131072x1_0 (peakArr l))))

/-- The softmax weights: each exponential over its row's sum. -/
def wtArr (l : FVec F S131072x64 .f32) : FVec F S131072x64 .f32 :=
  Host.divf (expArr l) (broadcastInDim S131072x64 ![0, 1] bcast_S131072x1_S131072x64_0_1
    (broadcastInDim S131072x1 ![0] bcast_S131072_S131072x1_0
      (Host.reduceAdd (expArr l) (constant S_ .f32 0x00000000#32) reducesTo_S131072x64_S131072_d1 h_S_)))

/-- FIRST RESULT: every row's selected state, `weights·R`. -/
def selTerm (x0 : FVec F S131072x512 .f32) (x1 : FVec F S64x512 .f32) (x2 : FVec F S512x128 .f32) (x3 : FVec F S128 .f32)
    (x4 : FVec F S128x64 .f32) (x5 : FVec F S64 .f32) : FVec F S131072x512 .f32 :=
  Host.dotGeneral dot_S131072x64_S64x512_S131072x512_1_0_0_1_n_n none (wtArr (logitArr x0 x2 x3 x4 x5)) x1

/-- The update directions: `tanh ([X, selected]·WU + cu)`, the two blocks of 512 columns joined side by side. -/
def updArr (x0 : FVec F S131072x512 .f32) (x1 : FVec F S64x512 .f32) (x2 : FVec F S512x128 .f32) (x3 : FVec F S128 .f32)
    (x4 : FVec F S128x64 .f32) (x5 : FVec F S64 .f32) (x6 : FVec F S1024x512 .f32) (x7 : FVec F S512 .f32) : FVec F S131072x512 .f32 :=
  Host.tanh (addf (Host.dotGeneral dot_S131072x1024_S1024x512_S131072x512_1_0_0_1_n_n none
      (concatenate S131072x1024 1 [⟨S131072x512, x0⟩, ⟨S131072x512, selTerm x0 x1 x2 x3 x4 x5⟩] concatenates_S131072x512_S131072x512_S131072x1024_d1) x6)
    (broadcastInDim S131072x512 ![0, 1] bcast_S1x512_S131072x512_0_1 (broadcastInDim S1x512 ![1] bcast_S512_S1x512_1 x7)))

/-- SECOND RESULT: the reference states moved by the rate times `weightsᵀ·updates`. -/
def newTerm (x0 : FVec F S131072x512 .f32) (x1 : FVec F S64x512 .f32) (x2 : FVec F S512x128 .f32) (x3 : FVec F S128 .f32)
    (x4 : FVec F S128x64 .f32) (x5 : FVec F S64 .f32) (x6 : FVec F S1024x512 .f32) (x7 : FVec F S512 .f32) : FVec F S64x512 .f32 :=
  addf x1 (mulf (broadcastInDim S64x512 ![] bcast_S_S64x512 (constant S_ .f32 0x3C23D70A#32))
    (Host.dotGeneral dot_S64x131072_S131072x512_S64x512_1_0_0_1_n_n none
      (transpose S64x131072 [1, 0] (wtArr (logitArr x0 x2 x3 x4 x5)) transposes_S131072x64_S64x131072_1_0)
      (updArr x0 x1 x2 x3 x4 x5 x6 x7)))

end Cert.ReferenceIdeal.RefValue

end
-- ==== Proof.RefRun.lean ====
/-
  The reference program's run, read back: every weakly fair execution of its @main terminates with its two results at
  the staged terms of its arguments (the selected states; the moved reference states) and its arguments unchanged.
  @main is a straight line of 38 host operations (the call of relu stands as its three operations in the call's
  place), so its run is the fold of those operations over the memory, and each result is read off that fold.
-/
import proofs.«140680_j54614804136388_2_alg».proof.Proof.RefTerms
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's operations, in order; the call of relu is its three operations (the zero scalar, its copy over the
    whole array, the maximum) on the call's own buffers. -/
abbrev ops : List (HloOp τ sig (Elt F)) :=
  [ binary main_arg0 main_arg2 main_v0 ((fun l r => Host.dotGeneral dot_S131072x512_S512x128_S131072x128_1_0_0_1_n_n none l r) : (⟨S131072x512, .f32⟩ : BufTy).Contents (Elt F) → (⟨S512x128, .f32⟩ : BufTy).Contents (Elt F) → (⟨S131072x128, .f32⟩ : BufTy).Contents (Elt F)),
    unary main_arg3 main_v1 (broadcastInDim S1x128 ![1] bcast_S128_S1x128_1 : (⟨S128, .f32⟩ : BufTy).Contents (Elt F) → (⟨S1x128, .f32⟩ : BufTy).Contents (Elt F)),
    unary main_v1 main_v2 (broadcastInDim S131072x128 ![0, 1] bcast_S1x128_S131072x128_0_1 : (⟨S1x128, .f32⟩ : BufTy).Contents (Elt F) → (⟨S131072x128, .f32⟩ : BufTy).Contents (Elt F)),
    binary main_v0 main_v2 main_v3 (addf : (⟨S131072x128, .f32⟩ : BufTy).Contents (Elt F) → (⟨S131072x128, .f32⟩ : BufTy).Contents (Elt F) → (⟨S131072x128, .f32⟩ : BufTy).Contents (Elt F)),
    nullary main_call0_cst (constant S_ .f32 0x00000000#32),
    unary main_call0_cst main_call0_v0 (broadcastInDim S131072x128 ![] bcast_S_S131072x128 : (⟨S_, .f32⟩ : BufTy).Contents (Elt F) → (⟨S131072x128, .f32⟩ : BufTy).Contents (Elt F)),
    binary main_v3 main_call0_v0 main_v4 (maximumf : (⟨S131072x128, .f32⟩ : BufTy).Contents (Elt F) → (⟨S131072x128, .f32⟩ : BufTy).Contents (Elt F) → (⟨S131072x128, .f32⟩ : BufTy).Contents (Elt F)),
    binary main_v4 main_arg4 main_v5 ((fun l r => Host.dotGeneral dot_S131072x128_S128x64_S131072x64_1_0_0_1_n_n none l r) : (⟨S131072x128, .f32⟩ : BufTy).Contents (Elt F) → (⟨S128x64, .f32⟩ : BufTy).Contents (Elt F) → (⟨S131072x64, .f32⟩ : BufTy).Contents (Elt F)),
    unary main_arg5 main_v6 (broadcastInDim S1x64 ![1] bcast_S64_S1x64_1 : (⟨S64, .f32⟩ : BufTy).Contents (Elt F) → (⟨S1x64, .f32⟩ : BufTy).Contents (Elt F)),
    unary main_v6 main_v7 (broadcastInDim S131072x64 ![0, 1] bcast_S1x64_S131072x64_0_1 : (⟨S1x64, .f32⟩ : BufTy).Contents (Elt F) → (⟨S131072x64, .f32⟩ : BufTy).Contents (Elt F)),
    binary main_v5 main_v7 main_v8 (addf : (⟨S131072x64, .f32⟩ : BufTy).Contents (Elt F) → (⟨S131072x64, .f32⟩ : BufTy).Contents (Elt F) → (⟨S131072x64, .f32⟩ : BufTy).Contents (Elt F)),
    nullary main_cst (constant S_ .f32 0xFF800000#32),
    binary main_v8 main_cst main_v9 ((fun x v => Host.reduce FloatOps.maximumf x v reducesTo_S131072x64_S131072_d1 h_S_) : (⟨S131072x64, .f32⟩ : BufTy).Contents (Elt F) → (⟨S_, .f32⟩ : BufTy).Contents (Elt F) → (⟨S131072, .f32⟩ : BufTy).Contents (Elt F)),
    nullary main_cst_0 (constant S_ .f32 0xFF800000#32),
    unary main_cst_0 main_v10 (broadcastInDim S131072 ![] bcast_S_S131072 : (⟨S_, .f32⟩ : BufTy).Contents (Elt F) → (⟨S131072, .f32⟩ : BufTy).Contents (Elt F)),
    binary main_v10 main_v9 main_v11 (maximumf : (⟨S131072, .f32⟩ : BufTy).Contents (Elt F) → (⟨S131072, .f32⟩ : BufTy).Contents (Elt F) → (⟨S131072, .f32⟩ : BufTy).Contents (Elt F)),
    unary main_v11 main_v12 (broadcastInDim S131072x1 ![0] bcast_S131072_S131072x1_0 : (⟨S131072, .f32⟩ : BufTy).Contents (Elt F) → (⟨S131072x1, .f32⟩ : BufTy).Contents (Elt F)),
    unary main_v12 main_v13 (broadcastInDim S131072x64 ![0, 1] bcast_S131072x1_S131072x64_0_1 : (⟨S131072x1, .f32⟩ : BufTy).Contents (Elt F) → (⟨S131072x64, .f32⟩ : BufTy).Contents (Elt F)),
    binary main_v8 main_v13 main_v14 (subf : (⟨S131072x64, .f32⟩ : BufTy).Contents (Elt F) → (⟨S131072x64, .f32⟩ : BufTy).Contents (Elt F) → (⟨S131072x64, .f32⟩ : BufTy).Contents (Elt F)),
    unary main_v14 main_v15 (Host.exp : (⟨S131072x64, .f32⟩ : BufTy).Contents (Elt F) → (⟨S131072x64, .f32⟩ : BufTy).Contents (Elt F)),
    nullary main_cst_1 (constant S_ .f32 0x00000000#32),
    binary main_v15 main_cst_1 main_v16 ((fun x v => Host.reduceAdd x v reducesTo_S131072x64_S131072_d1 h_S_) : (⟨S131072x64, .f32⟩ : BufTy).Contents (Elt F) → (⟨S_, .f32⟩ : BufTy).Contents (Elt F) → (⟨S131072, .f32⟩ : BufTy).Contents (Elt F)),
    unary main_v16 main_v17 (broadcastInDim S131072x1 ![0] bcast_S131072_S131072x1_0 : (⟨S131072, .f32⟩ : BufTy).Contents (Elt F) → (⟨S131072x1, .f32⟩ : BufTy).Contents (Elt F)),
    unary main_v17 main_v18 (broadcastInDim S131072x64 ![0, 1] bcast_S131072x1_S131072x64_0_1 : (⟨S131072x1, .f32⟩ : BufTy).Contents (Elt F) → (⟨S131072x64, .f32⟩ : BufTy).Contents (Elt F)),
    binary main_v15 main_v18 main_v19 (Host.divf : (⟨S131072x64, .f32⟩ : BufTy).Contents (Elt F) → (⟨S131072x64, .f32⟩ : BufTy).Contents (Elt F) → (⟨S131072x64, .f32⟩ : BufTy).Contents (Elt F)),
    binary main_v19 main_arg1 main_v20 ((fun l r => Host.dotGeneral dot_S131072x64_S64x512_S131072x512_1_0_0_1_n_n none l r) : (⟨S131072x64, .f32⟩ : BufTy).Contents (Elt F) → (⟨S64x512, .f32⟩ : BufTy).Contents (Elt F) → (⟨S131072x512, .f32⟩ : BufTy).Contents (Elt F)),
    binary main_arg0 main_v20 main_v21 ((fun a b => concatenate S131072x1024 1 [⟨S131072x512, a⟩, ⟨S131072x512, b⟩] concatenates_S131072x512_S131072x512_S131072x1024_d1) : (⟨S131072x512, .f32⟩ : BufTy).Contents (Elt F) → (⟨S131072x512, .f32⟩ : BufTy).Contents (Elt F) → (⟨S131072x1024, .f32⟩ : BufTy).Contents (Elt F)),
    binary main_v21 main_arg6 main_v22 ((fun l r => Host.dotGeneral dot_S131072x1024_S1024x512_S131072x512_1_0_0_1_n_n none l r) : (⟨S131072x1024, .f32⟩ : BufTy).Contents (Elt F) → (⟨S1024x512, .f32⟩ : BufTy).Contents (Elt F) → (⟨S131072x512, .f32⟩ : BufTy).Contents (Elt F)),
    unary main_arg7 main_v23 (broadcastInDim S1x512 ![1] bcast_S512_S1x512_1 : (⟨S512, .f32⟩ : BufTy).Contents (Elt F) → (⟨S1x512, .f32⟩ : BufTy).Contents (Elt F)),
    unary main_v23 main_v24 (broadcastInDim S131072x512 ![0, 1] bcast_S1x512_S131072x512_0_1 : (⟨S1x512, .f32⟩ : BufTy).Contents (Elt F) → (⟨S131072x512, .f32⟩ : BufTy).Contents (Elt F)),
    binary main_v22 main_v24 main_v25 (addf : (⟨S131072x512, .f32⟩ : BufTy).Contents (Elt F) → (⟨S131072x512, .f32⟩ : BufTy).Contents (Elt F) → (⟨S131072x512, .f32⟩ : BufTy).Contents (Elt F)),
    unary main_v25 main_v26 (Host.tanh : (⟨S131072x512, .f32⟩ : BufTy).Contents (Elt F) → (⟨S131072x512, .f32⟩ : BufTy).Contents (Elt F)),
    unary main_v19 main_v27 ((transpose S64x131072 [1, 0] · transposes_S131072x64_S64x131072_1_0) : (⟨S131072x64, .f32⟩ : BufTy).Contents (Elt F) → (⟨S64x131072, .f32⟩ : BufTy).Contents (Elt F)),
    binary main_v27 main_v26 main_v28 ((fun l r => Host.dotGeneral dot_S64x131072_S131072x512_S64x512_1_0_0_1_n_n none l r) : (⟨S64x131072, .f32⟩ : BufTy).Contents (Elt F) → (⟨S131072x512, .f32⟩ : BufTy).Contents (Elt F) → (⟨S64x512, .f32⟩ : BufTy).Contents (Elt F)),
    nullary main_cst_2 (constant S_ .f32 0x3C23D70A#32),
    unary main_cst_2 main_v29 (broadcastInDim S64x512 ![] bcast_S_S64x512 : (⟨S_, .f32⟩ : BufTy).Contents (Elt F) → (⟨S64x512, .f32⟩ : BufTy).Contents (Elt F)),
    binary main_v29 main_v28 main_v30 (mulf : (⟨S64x512, .f32⟩ : BufTy).Contents (Elt F) → (⟨S64x512, .f32⟩ : BufTy).Contents (Elt F) → (⟨S64x512, .f32⟩ : BufTy).Contents (Elt F)),
    binary main_arg1 main_v30 main_v31 (addf : (⟨S64x512, .f32⟩ : BufTy).Contents (Elt F) → (⟨S64x512, .f32⟩ : BufTy).Contents (Elt F) → (⟨S64x512, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub ..⟩

set_option maxHeartbeats 2000000 in
/-- The run: both results at their staged terms, every argument as it was. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v20) = selTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v31) = newTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun _ h c => ?_)
    (run_seq scopedRefs_eq scopedSems_eq defs main (fun _ => ops) main_eq (fun _ => ops_sub) m ρ)
  have e20 := h c main_v20
  have e31 := h c main_v31
  have a0 := h c main_arg0
  have a1 := h c main_arg1
  have a2 := h c main_arg2
  have a3 := h c main_arg3
  have a4 := h c main_arg4
  have a5 := h c main_arg5
  have a6 := h c main_arg6
  have a7 := h c main_arg7
  refine ⟨?_, ?_, ?_, ?_, ?_, ?_, ?_, ?_, ?_, ?_⟩
  · rw [e20]; after_results_simp
    unfold selTerm wtArr expArr peakArr logitArr hidArr; rfl
  · rw [e31]; after_results_simp
    -- the operands of the side-by-side join are still unevaluated: finish them one rewrite at a time
    repeat (first
      | rw [nullary_result] | rw [unary_result] | rw [binary_result] | rw [reshape_result]
      | (rw [nullary_result_ne]; rotate_left; decide)
      | (rw [unary_result_ne]; rotate_left; decide)
      | (rw [binary_result_ne]; rotate_left; decide)
      | (rw [reshape_result_ne]; rotate_left; decide))
    unfold newTerm updArr selTerm wtArr expArr peakArr logitArr hidArr
    have l0 : launchContents m c (Proc.devRef .tc main_arg0) = m ((c.tc : Thread nD τ).loc main_arg0) := rfl
    have l1 : launchContents m c (Proc.devRef .tc main_arg1) = m ((c.tc : Thread nD τ).loc main_arg1) := rfl
    have l2 : launchContents m c (Proc.devRef .tc main_arg2) = m ((c.tc : Thread nD τ).loc main_arg2) := rfl
    have l3 : launchContents m c (Proc.devRef .tc main_arg3) = m ((c.tc : Thread nD τ).loc main_arg3) := rfl
    have l4 : launchContents m c (Proc.devRef .tc main_arg4) = m ((c.tc : Thread nD τ).loc main_arg4) := rfl
    have l5 : launchContents m c (Proc.devRef .tc main_arg5) = m ((c.tc : Thread nD τ).loc main_arg5) := rfl
    have l6 : launchContents m c (Proc.devRef .tc main_arg6) = m ((c.tc : Thread nD τ).loc main_arg6) := rfl
    have l7 : launchContents m c (Proc.devRef .tc main_arg7) = m ((c.tc : Thread nD τ).loc main_arg7) := rfl
    rw [l0, l1, l2, l3, l4, l5, l6, l7]
  · rw [a0]; after_results_simp <;> rfl
  · rw [a1]; after_results_simp <;> rfl
  · rw [a2]; after_results_simp <;> rfl
  · rw [a3]; after_results_simp <;> rfl
  · rw [a4]; after_results_simp <;> rfl
  · rw [a5]; after_results_simp <;> rfl
  · rw [a6]; after_results_simp <;> rfl
  · rw [a7]; after_results_simp <;> rfl

end Cert.ReferenceIdeal.RefValue

end
-- ==== Proof.RefForm.lean ====
/-
  The reference's two results are the specification's functions, index by index, over the extended reals.

  Each stage of the reference is read at one index written by its coordinates. A matrix product at `(a, b)` is the sum
  over the contracted coordinate of the products of the entries; a bias vector laid out as one row and copied down
  the rows reads the vector at the column; a per-row number laid out as one column and copied across reads the number
  of the row; the row maximum is the fold of `max` over the row's 64 entries from minus infinity; the row sum from the
  zero word is the sum of the row's entries, since `0 + s = s`. The product of the joined row `[x, selected]` of length
  1024 with the update matrix splits at the middle into the sum over the upper 512 rows plus the sum over the lower
  512. The transpose of the weights only renames the entry `(s, b)` as `(b, s)`, so the last product is the sum over
  all rows `b` of `weight_b(s) · pushed_b(d)`, and the broadcast scalar in front of it is the rate's word. Nothing
  needs the entries to be finite.
-/
import proofs.«140680_j54614804136388_2_alg».proof.Proof.RefTerms
import proofs.«140680_j54614804136388_2_alg».proof.Proof.Spec
import proofs.«140680_j54614804136388_2_alg».proof.Proof.LibPlainProduct
import proofs.«140680_j54614804136388_2_alg».proof.Proof.LibRowForms
import Idealize.ShloMosaic.Lib.ValueIdx
import Idealize.ShloMosaic.Lib.Pipeline.Value
import Idealize.ShloMosaic.Lib.ValueLayout
import Idealize.ShloMosaic.Lib.IdealHost
import Idealize.ShloMosaic.Lib.KernelVsHost
import Idealize.ShloMosaic.PureOps.Ideal.Laws

noncomputable section

open scoped BigOperators

namespace Cert.ReferenceIdeal.RefForm

open Cert.ReferenceIdeal Cert.ReferenceIdeal.Gen Cert.ReferenceIdeal.RefValue Cert.StateUpdate Idealize.ShloMosaic Idealize.ShloMosaic.ValueIdx

section Layout
variable {α : Type}

/-- A vector `[n]` laid out as the one row `[1, n]` reads, at `(u, t)`, the vector at `t`. -/
theorem rowOfVec_apply {n : ℕ} (h : (⟨1, ![n]⟩ : Shape).BroadcastsInDim ⟨2, ![1, n]⟩ ![1])
    (x : (⟨1, ![n]⟩ : Shape).Idx → α) (u : Fin 1) (t : Fin n) :
    broadcastInDim ⟨2, ![1, n]⟩ ![1] h x (ix2 u t) = x (ix1 t) := by
  refine broadcastInDim_apply ![1] h x (ix2 u t) (ix1 t) fun a => ?_
  match a with
  | ⟨0, _⟩ =>
    show t.val = if n = 1 then 0 else t.val
    split
    · have := t.isLt; omega
    · rfl

/-- A vector `[m]` laid out as the one column `[m, 1]` reads, at `(b, u)`, the vector at `b`. -/
theorem colOfVec_apply {m : ℕ} (h : (⟨1, ![m]⟩ : Shape).BroadcastsInDim ⟨2, ![m, 1]⟩ ![0])
    (x : (⟨1, ![m]⟩ : Shape).Idx → α) (b : Fin m) (u : Fin 1) :
    broadcastInDim ⟨2, ![m, 1]⟩ ![0] h x (ix2 b u) = x (ix1 b) := by
  refine broadcastInDim_apply ![0] h x (ix2 b u) (ix1 b) fun a => ?_
  match a with
  | ⟨0, _⟩ =>
    show b.val = if m = 1 then 0 else b.val
    split
    · have := b.isLt; omega
    · rfl

/-- A column `[m, 1]` copied across `n` columns reads, at `(b, t)`, the column at `(b, 0)`. -/
theorem colAcross_apply {m n : ℕ} (h : (⟨2, ![m, 1]⟩ : Shape).BroadcastsInDim ⟨2, ![m, n]⟩ ![0, 1])
    (y : (⟨2, ![m, 1]⟩ : Shape).Idx → α) (b : Fin m) (t : Fin n) :
    broadcastInDim ⟨2, ![m, n]⟩ ![0, 1] h y (ix2 b t) = y (ix2 b (0 : Fin 1)) := by
  refine broadcastInDim_apply ![0, 1] h y (ix2 b t) (ix2 b (0 : Fin 1)) fun a => ?_
  match a with
  | ⟨0, _⟩ =>
    show b.val = if m = 1 then 0 else b.val
    split
    · have := b.isLt; omega
    · rfl
  | ⟨1, _⟩ => rfl

end Layout

/-- The hidden layer at `(b, j)`: the row's product with column `j` of the first weight matrix, the bias added, cut below at zero. -/
theorem hidArr_apply (x0 : FVec Ideal S131072x512 .f32) (x2 : FVec Ideal S512x128 .f32) (x3 : FVec Ideal S128 .f32)
    (b : Fin 131072) (j : Fin 128) :
    hidArr (F := Ideal) x0 x2 x3 (ix2 b j) = max (∑ k : Fin 512, x0 (ix2 b k) * x2 (ix2 k j) + x3 (ix1 j)) zeroW := by
  unfold hidArr
  rw [maximumf_apply, addf_apply,
    PlainProduct.dotGeneral_of_plain dot_S131072x512_S512x128_S131072x128_1_0_0_1_n_n rfl,
    broadcastInDim_oneRow_apply, rowOfVec_apply, broadcastInDim_scalar_apply, constant_apply]
  rfl

/-- The logits at `(b, s)`. -/
theorem logitArr_apply (x0 : FVec Ideal S131072x512 .f32) (x2 : FVec Ideal S512x128 .f32) (x3 : FVec Ideal S128 .f32)
    (x4 : FVec Ideal S128x64 .f32) (x5 : FVec Ideal S64 .f32) (b : Fin 131072) (s : Fin 64) :
    logitArr (F := Ideal) x0 x2 x3 x4 x5 (ix2 b s)
      = ∑ j : Fin 128, hidArr (F := Ideal) x0 x2 x3 (ix2 b j) * x4 (ix2 j s) + x5 (ix1 s) := by
  unfold logitArr
  rw [addf_apply, PlainProduct.dotGeneral_of_plain dot_S131072x128_S128x64_S131072x64_1_0_0_1_n_n rfl,
    broadcastInDim_oneRow_apply, rowOfVec_apply]

/-- A witness that dropping the second axis of the logits' shape leaves the rows' shape. -/
theorem rowsReduce : S131072x64.Reduces [1] S131072 := by decide

/-- Each row's greatest logit at `b`. -/
theorem peakArr_apply (l : FVec Ideal S131072x64 .f32) (b : Fin 131072) :
    peakArr (F := Ideal) l (ix1 b) = max negInf ((Finset.univ : Finset (Fin 64)).fold max negInf fun s => l (ix2 b s)) := by
  unfold peakArr
  rw [maximumf_apply, broadcastInDim_scalar_apply, constant_apply,
    Host.reduce_eq_fold_single FloatOps.maximumf l _ reducesTo_S131072x64_S131072_d1 rowsReduce h_S_]
  refine congrArg (max negInf) ?_
  refine congrArg (fun f => Finset.fold max negInf f (Finset.univ : Finset (Fin 64))) ?_
  exact funext fun k => congrArg l (Cert.RowForms.lift_row rowsReduce b k)

/-- The exponentials at `(b, s)`. -/
theorem expArr_apply (l : FVec Ideal S131072x64 .f32) (b : Fin 131072) (s : Fin 64) :
    expArr (F := Ideal) l (ix2 b s) = Ideal.exp (l (ix2 b s) - peakArr (F := Ideal) l (ix1 b)) := by
  unfold expArr
  show Ideal.exp (l (ix2 b s) - _) = _
  rw [colAcross_apply, colOfVec_apply]

/-- The softmax weights at `(b, s)`. -/
theorem wtArr_apply (l : FVec Ideal S131072x64 .f32) (b : Fin 131072) (s : Fin 64) :
    wtArr (F := Ideal) l (ix2 b s)
      = Ideal.div (expArr (F := Ideal) l (ix2 b s)) (∑ s' : Fin 64, expArr (F := Ideal) l (ix2 b s')) := by
  unfold wtArr
  rw [hostDivf_apply, colAcross_apply, colOfVec_apply, hostReduceAdd_apply,
    Ideal.hostReduceAdd_single reducesTo_S131072x64_S131072_d1 rowsReduce, constant_apply, Ideal.ofBits_zero_f32, zero_add]
  refine congrArg (Ideal.div _) ?_
  exact Finset.sum_congr rfl fun k _ => congrArg (expArr (F := Ideal) l) (Cert.RowForms.lift_row rowsReduce b k)

/-- A sum over the 1024 rows of the update matrix is the sum over its upper 512 plus the sum over its lower 512. -/
theorem sum_lo_hi {M : Type} [AddCommMonoid M] (f : Fin 1024 → M) :
    ∑ c : Fin 1024, f c = ∑ k : Fin 512, f (lo k) + ∑ k : Fin 512, f (hi k) :=
  Fin.sum_univ_add (a := 512) (b := 512) f

section Join
variable {α : Type}

/-- Two blocks of 512 columns joined side by side, read in the left block. -/
theorem joined_left (x y : S131072x512.Idx → α) (b : Fin 131072) (k : Fin 512) :
    concatenate S131072x1024 1 [⟨S131072x512, x⟩, ⟨S131072x512, y⟩] concatenates_S131072x512_S131072x512_S131072x1024_d1
      (ix2 b (lo k)) = x (ix2 b k) := by
  refine concatenate_pair_apply_left (1 : Fin S131072x1024.rank) x y _ (ix2 b (lo k)) rfl (ix2 b k) fun a => ?_
  match a with
  | ⟨0, _⟩ => rfl
  | ⟨1, _⟩ => rfl

/-- The same, read in the right block. -/
theorem joined_right (x y : S131072x512.Idx → α) (b : Fin 131072) (k : Fin 512) :
    concatenate S131072x1024 1 [⟨S131072x512, x⟩, ⟨S131072x512, y⟩] concatenates_S131072x512_S131072x512_S131072x1024_d1
      (ix2 b (hi k)) = y (ix2 b k) := by
  refine concatenate_pair_apply_right (1 : Fin S131072x1024.rank) x y _ (ix2 b (hi k)) rfl rfl (ix2 b k) (fun a ha => ?_) ?_
  · match a with
    | ⟨0, _⟩ => rfl
    | ⟨1, _⟩ => exact absurd rfl ha
  · show k.val + 512 = 512 + k.val
    omega

end Join

section Spec

variable (x0 : FVec Ideal S131072x512 .f32) (x1 : FVec Ideal S64x512 .f32) (x2 : FVec Ideal S512x128 .f32)
  (x3 : FVec Ideal S128 .f32) (x4 : FVec Ideal S128x64 .f32) (x5 : FVec Ideal S64 .f32) (x6 : FVec Ideal S1024x512 .f32)
  (x7 : FVec Ideal S512 .f32)

/-- The hidden layer is the specification's, row by row. -/
theorem hidArr_eq (b : Fin 131072) (j : Fin 128) :
    hidArr (F := Ideal) x0 x2 x3 (ix2 b j) = hidden (paramsOf x1 x2 x3 x4 x5 x6 x7) (rowsOf x0 b) j :=
  hidArr_apply x0 x2 x3 b j

/-- The logits are the specification's. -/
theorem logitArr_eq (b : Fin 131072) (s : Fin 64) :
    logitArr (F := Ideal) x0 x2 x3 x4 x5 (ix2 b s) = logit (paramsOf x1 x2 x3 x4 x5 x6 x7) (rowsOf x0 b) s := by
  rw [logitArr_apply]
  show _ = ∑ j : Fin 128, hidden (paramsOf x1 x2 x3 x4 x5 x6 x7) (rowsOf x0 b) j * x4 (ix2 j s) + x5 (ix1 s)
  refine congrArg (· + x5 (ix1 s)) ?_
  exact Finset.sum_congr rfl fun j _ => congrArg (· * x4 (ix2 j s)) (hidArr_eq x0 x1 x2 x3 x4 x5 x6 x7 b j)

/-- Row `b` of the logits, as a function of the state's number, is the specification's logits of that row. -/
theorem logitRow_eq (b : Fin 131072) :
    (fun s : Fin 64 => logitArr (F := Ideal) x0 x2 x3 x4 x5 (ix2 b s)) = logit (paramsOf x1 x2 x3 x4 x5 x6 x7) (rowsOf x0 b) :=
  funext fun s => logitArr_eq x0 x1 x2 x3 x4 x5 x6 x7 b s

/-- Each row's greatest logit is the specification's peak. -/
theorem peakArr_eq (b : Fin 131072) :
    peakArr (F := Ideal) (logitArr (F := Ideal) x0 x2 x3 x4 x5) (ix1 b) = peak (paramsOf x1 x2 x3 x4 x5 x6 x7) (rowsOf x0 b) := by
  rw [peakArr_apply, logitRow_eq x0 x1 x2 x3 x4 x5 x6 x7 b]
  rfl

/-- The exponentials are the specification's. -/
theorem expArr_eq (b : Fin 131072) (s : Fin 64) :
    expArr (F := Ideal) (logitArr (F := Ideal) x0 x2 x3 x4 x5) (ix2 b s) = expo (paramsOf x1 x2 x3 x4 x5 x6 x7) (rowsOf x0 b) s := by
  rw [expArr_apply, logitArr_eq x0 x1 x2 x3 x4 x5 x6 x7, peakArr_eq x0 x1 x2 x3 x4 x5 x6 x7]
  rfl

/-- The softmax weights are the specification's. -/
theorem wtArr_eq (b : Fin 131072) (s : Fin 64) :
    wtArr (F := Ideal) (logitArr (F := Ideal) x0 x2 x3 x4 x5) (ix2 b s) = weight (paramsOf x1 x2 x3 x4 x5 x6 x7) (rowsOf x0 b) s := by
  rw [wtArr_apply, expArr_eq x0 x1 x2 x3 x4 x5 x6 x7]
  refine congrArg (Ideal.div _) ?_
  exact Finset.sum_congr rfl fun s' _ => expArr_eq x0 x1 x2 x3 x4 x5 x6 x7 b s'

/-- FIRST RESULT at `(b, d)`: the row's selected state. -/
theorem selTerm_apply (b : Fin 131072) (d : Fin 512) :
    selTerm (F := Ideal) x0 x1 x2 x3 x4 x5 (ix2 b d) = chosen (paramsOf x1 x2 x3 x4 x5 x6 x7) (rowsOf x0 b) d := by
  unfold selTerm
  rw [PlainProduct.dotGeneral_of_plain dot_S131072x64_S64x512_S131072x512_1_0_0_1_n_n rfl]
  exact Finset.sum_congr rfl fun s _ => congrArg (· * x1 (ix2 s d)) (wtArr_eq x0 x1 x2 x3 x4 x5 x6 x7 b s)

/-- The update directions at `(b, d)`: the specification's. -/
theorem updArr_apply (b : Fin 131072) (d : Fin 512) :
    updArr (F := Ideal) x0 x1 x2 x3 x4 x5 x6 x7 (ix2 b d) = pushed (paramsOf x1 x2 x3 x4 x5 x6 x7) (rowsOf x0 b) d := by
  unfold updArr
  show Ideal.tanh (_ + _) = _
  rw [PlainProduct.dotGeneral_of_plain dot_S131072x1024_S1024x512_S131072x512_1_0_0_1_n_n rfl,
    broadcastInDim_oneRow_apply, rowOfVec_apply, sum_lo_hi]
  refine congrArg (fun v => Ideal.tanh (v + x7 (ix1 d))) ?_
  refine congrArg₂ (· + ·) ?_ ?_
  · exact Finset.sum_congr rfl fun k _ => congrArg (· * x6 (ix2 (lo k) d)) (joined_left x0 _ b k)
  · refine Finset.sum_congr rfl fun k _ => congrArg (· * x6 (ix2 (hi k) d)) ?_
    exact (joined_right x0 _ b k).trans (selTerm_apply x0 x1 x2 x3 x4 x5 x6 x7 b k)

/-- SECOND RESULT at `(s, d)`: the specification's updated state. -/
theorem newTerm_apply (s : Fin 64) (d : Fin 512) :
    newTerm (F := Ideal) x0 x1 x2 x3 x4 x5 x6 x7 (ix2 s d) = newStates (paramsOf x1 x2 x3 x4 x5 x6 x7) (rowsOf x0) s d := by
  unfold newTerm
  rw [addf_apply, mulf_apply, broadcastInDim_scalar_apply, constant_apply,
    PlainProduct.dotGeneral_of_plain dot_S64x131072_S131072x512_S64x512_1_0_0_1_n_n rfl]
  refine congrArg (fun v => x1 (ix2 s d) + rate * v) ?_
  refine Finset.sum_congr rfl fun b _ => ?_
  rw [PlainProduct.transpose_swap_apply, wtArr_eq x0 x1 x2 x3 x4 x5 x6 x7, updArr_apply]
  rfl

end Spec

/-- The reference's first result is the array of every row's selected state. -/
theorem selTerm_eq (x0 : FVec Ideal S131072x512 .f32) (x1 : FVec Ideal S64x512 .f32) (x2 : FVec Ideal S512x128 .f32)
    (x3 : FVec Ideal S128 .f32) (x4 : FVec Ideal S128x64 .f32) (x5 : FVec Ideal S64 .f32) (x6 : FVec Ideal S1024x512 .f32)
    (x7 : FVec Ideal S512 .f32) :
    selTerm (F := Ideal) x0 x1 x2 x3 x4 x5 = selectedArr (paramsOf x1 x2 x3 x4 x5 x6 x7) x0 := by
  funext i
  obtain ⟨b, d, rfl⟩ : ∃ (b : Fin 131072) (d : Fin 512), i = ix2 b d := ⟨i 0, i 1, eq_ix2 i⟩
  exact selTerm_apply x0 x1 x2 x3 x4 x5 x6 x7 b d

/-- The reference's second result is the array of updated states. -/
theorem newTerm_eq (x0 : FVec Ideal S131072x512 .f32) (x1 : FVec Ideal S64x512 .f32) (x2 : FVec Ideal S512x128 .f32)
    (x3 : FVec Ideal S128 .f32) (x4 : FVec Ideal S128x64 .f32) (x5 : FVec Ideal S64 .f32) (x6 : FVec Ideal S1024x512 .f32)
    (x7 : FVec Ideal S512 .f32) :
    newTerm (F := Ideal) x0 x1 x2 x3 x4 x5 x6 x7 = newStatesArr (paramsOf x1 x2 x3 x4 x5 x6 x7) x0 := by
  funext i
  obtain ⟨s, d, rfl⟩ : ∃ (s : Fin 64) (d : Fin 512), i = ix2 s d := ⟨i 0, i 1, eq_ix2 i⟩
  exact newTerm_apply x0 x1 x2 x3 x4 x5 x6 x7 s d

end Cert.ReferenceIdeal.RefForm

end
-- ==== Proof.lean ====
/-
  The certificate of one kernel against its reference: a state selector and updater.

  For each of 131072 batch rows the program computes softmax weights over 64 reference states (a two-layer
  selector: 512 → 128 → 64 with a rectifier between), the selected state (the weights' combination of the
  reference states), and an update direction (the hyperbolic tangent of a linear map of the row joined with its
  selected state); it returns the selected states and the reference states moved by a fixed rate times the sum
  over the batch of (weight × update direction).

  The kernel walks the batch in 128 tiles of 1024 rows on two cores, each core accumulating its 64 tiles' share
  of that sum in a scratch block and writing the rate times its total to its own slot; the host adds the two slots to
  the reference states.  The reference computes everything on whole arrays.  Read at the exact instance, both compute
  the same extended reals: the row functions are the same operation for operation (Spec.lean; the kernel's
  payloads in BodyForm.lean, the reference's stages in RefForm.lean); the product of the joined row with the
  1024-row matrix is the sum of the products of its halves; the tiles partition the rows; and scaling by the rate — a
  nonnegative real — distributes over the two cores' totals (ScaleLaw.lean).  No finiteness of the inputs is used.

  What the kernel's arrays hold after its run is read off its generated frame run: what each control case leaves
  (Pieces.lean), the blocks found at each step (Blocks.lean), the accumulator over a core's steps (Accum.lean), the
  two output arrays (SelArray.lean, States.lean), the host's lines after the kernel (Tail.lean), the run (KRun.lean).
  The reference's run is RefRun.lean over the staged terms of RefTerms.lean.  The ideal pass rewrote nothing, so
  the idealization claim is trivial; the frames of the two kernel programs are the generated ones.
-/
import proofs.«140680_j54614804136388_2_alg».proof.Defs
import proofs.«140680_j54614804136388_2_alg».proof.Proof.Gen.Kernel
import proofs.«140680_j54614804136388_2_alg».proof.Proof.Gen.Kernel.Skeleton
import proofs.«140680_j54614804136388_2_alg».proof.Proof.Gen.Kernel.Launch
import proofs.«140680_j54614804136388_2_alg».proof.Proof.Gen.Kernel.Points
import proofs.«140680_j54614804136388_2_alg».proof.Proof.Gen.Kernel.Frame
import proofs.«140680_j54614804136388_2_alg».proof.Proof.Gen.KernelIdeal
import proofs.«140680_j54614804136388_2_alg».proof.Proof.Gen.KernelIdeal.Skeleton
import proofs.«140680_j54614804136388_2_alg».proof.Proof.Gen.KernelIdeal.Launch
import proofs.«140680_j54614804136388_2_alg».proof.Proof.Gen.KernelIdeal.Points
import proofs.«140680_j54614804136388_2_alg».proof.Proof.Gen.KernelIdeal.Frame
import proofs.«140680_j54614804136388_2_alg».proof.Proof.Gen.ReferenceIdeal
import proofs.«140680_j54614804136388_2_alg».proof.Proof.Gen.Pre_finite_inputs
import proofs.«140680_j54614804136388_2_alg».proof.Proof.KRun
import proofs.«140680_j54614804136388_2_alg».proof.Proof.RefRun
import proofs.«140680_j54614804136388_2_alg».proof.Proof.RefForm
import Idealize.ShloMosaic.Adequacy
import Idealize.ShloMosaic.Init

noncomputable section

namespace Cert.Proof

open Idealize.ShloMosaic Idealize.SL.Sem Cert.StateUpdate

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.RefValue.run (F := Ideal) m ρ)

theorem preserves : Cert.preserves_Kernel_KernelIdeal := trivial

/-- Both programs end with the selected states and the updated states of arguments that agree. -/
theorem algebraic : Cert.algebraic_KernelIdeal_ReferenceIdeal := by
  intro m ρ m' ρ' _ hagree
  refine ⟨fun c => selectedArr (Cert.KernelIdeal.Device.Pm m c) (m ((c.tc : Thread Cert.KernelIdeal.nD Cert.KernelIdeal.τ).loc Cert.KernelIdeal.main_arg0)),
    fun c => newStatesArr (Cert.KernelIdeal.Device.Pm m c) (m ((c.tc : Thread Cert.KernelIdeal.nD Cert.KernelIdeal.τ).loc Cert.KernelIdeal.main_arg0)),
    Cert.KernelIdeal.KRun.run m ρ, ?_⟩
  refine (θ_run Cert.ReferenceIdeal.defs _ _).mono (fun _ h c => ?_) (Cert.ReferenceIdeal.RefValue.run (F := Ideal) m' ρ')
  obtain ⟨h20, h31, hargs⟩ := h c
  obtain ⟨g0, g1, g2, g3, g4, g5, g6, g7⟩ := hagree c
  refine ⟨?_, ?_, hargs⟩
  · rw [h20, Cert.ReferenceIdeal.RefForm.selTerm_eq _ _ _ _ _ _ (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)), g0, g1, g2, g3, g4, g5, g6, g7]
  · rw [h31, Cert.ReferenceIdeal.RefForm.newTerm_eq, g0, g1, g2, g3, g4, g5, g6, g7]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
